-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 44
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .i32⟩
  | .hbm, ⟨12, _⟩ => ⟨S1700000, .i32⟩
  | .hbm, ⟨13, _⟩ => ⟨S_, .i32⟩
  | .hbm, ⟨14, _⟩ => ⟨S100000, .i32⟩
  | .hbm, ⟨15, _⟩ => ⟨S1700000x1, .i32⟩
  | .hbm, ⟨16, _⟩ => ⟨S100000, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .bf16⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .bf16⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The kernel program's run with its RESULT named.

  The program is two pallas_call regions among stretches of host operations. Its generated frame certificate runs the
  six segments in order and reads every unscoped buffer back at the last boundary's contents (the fold called W6 there),
  but states the outcome for the four argument arrays only. Here the same run is read at one more buffer, the result
  main_v30: every weakly fair execution ends with main_v30 holding W6 at that buffer — region 1's output array once all
  of its 20 grid points have written their blocks back — and the arguments unchanged.
-/
import proofs.«121808_j34591666602118_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates, nothing faulting,
    with the result buffer at the last boundary's contents and the four arguments as launched. -/
theorem run_out : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.KRun

end
-- ==== Proof.LibGather.lean ====
/-
  Row gathers read at an entry.

  Two lowerings of array indexing by a vector of row numbers, with one scalar start index per result row (an E × 1
  index array, index vector along axis 1):
    * rows of a matrix: operand N × C, result E × C, offset axis 1, collapsed axis 0, slice sizes (1, C);
      result entry (e, c) is the operand's entry (rho e, c);
    * entries of a vector: operand of length N, result of length E, collapsed axis 0, slice size 1;
      result entry e is the operand's entry rho e;
  where rho e is row e's start index read signed and clamped into [0, N - 1]. Both pick the SAME row rho e from the
  same index array. They hold for every extent N, E, C.
-/
import Idealize.ShloMosaic.PureOps.Ideal
import Idealize.ShloMosaic.Lib.ValueIdx

noncomputable section

namespace Cert.LibGather

open Idealize.ShloMosaic Idealize.ShloMosaic.ValueIdx

variable {α : Type}

/-- The row a start index selects: the index word read signed, clamped into [0, N - 1]. -/
def clampRow (N : Nat) {w : Nat} (v : BitVec w) : Nat := min v.toInt.toNat (N - 1)

theorem clampRow_lt {N w : Nat} (hN : 0 < N) (v : BitVec w) : clampRow N v < N := by
  unfold clampRow; omega

/-- A start index that, read signed, is a row number below N selects that row. -/
theorem clampRow_of_toInt {N w : Nat} (v : BitVec w) (n : Nat) (hn : n < N) (h : v.toInt = (n : Int)) :
    clampRow N v = n := by
  unfold clampRow; rw [h]; simp only [Int.toNat_natCast]; omega

section Rows

variable {N E C w : Nat}
  (wf : GatherDims.WF (⟨2, ![N, C]⟩ : Shape) ⟨2, ![E, 1]⟩ ⟨2, ![E, C]⟩ [1] [0] [] [0] [] 1 ![1, C])

/-- The row gather's dimension numbers. -/
abbrev rowDims : GatherDims (⟨2, ![N, C]⟩ : Shape) ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather read at (e, c): the operand at (rho e, c). -/
theorem rows_gather_apply (hN : 0 < N) (x : (⟨2, ![N, C]⟩ : Shape).Idx → α) (idx : IVec ⟨2, ![E, 1]⟩ w)
    (e : Fin E) (c : Fin C) :
    Host.gather (rowDims wf) x idx (ix2 e c)
      = x (ix2 ⟨clampRow N (idx (ix2 e (0 : Fin 1))), clampRow_lt hN _⟩ c) := by
  unfold Host.gather
  refine congrArg x (funext fun a => Fin.ext ?_)
  have hsi : (rowDims wf).siIdx (ix2 e c) ⟨List.idxOf (0 : Fin 2) (rowDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowDims wf).start (ix2 e c) idx 0 + (rowDims wf).batchCoord (ix2 e c) 0 + (rowDims wf).offCoord (ix2 e c) 0
      = clampRow N (idx (ix2 e (0 : Fin 1)))
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl), hsi]
    rfl
  | ⟨1, _⟩ =>
    show (rowDims wf).start (ix2 e c) idx 1 + (rowDims wf).batchCoord (ix2 e c) 1 + (rowDims wf).offCoord (ix2 e c) 1
      = c.val
    rw [GatherDims.batchCoord_eq_zero _ _ _ List.not_mem_nil]
    have hs : (rowDims wf).start (ix2 e c) idx 1 = 0 := by
      unfold GatherDims.start
      rw [dif_neg (by decide : (1 : Fin 2) ∉ ([0] : List (Fin 2)))]
    have ho : (rowDims wf).offCoord (ix2 e c) 1 = c.val := by
      unfold GatherDims.offCoord
      rw [dif_pos (show (1 : Fin 2) ∈ (rowDims wf).sKept from
        (GatherDims.mem_sKept _ _).mpr ⟨(by decide : (1 : Fin 2) ∉ ([0] : List (Fin 2))), List.not_mem_nil⟩)]
      rfl
    rw [hs, ho]; omega

end Rows

section Entries

variable {N E w : Nat}
  (wf : GatherDims.WF (⟨1, ![N]⟩ : Shape) ⟨2, ![E, 1]⟩ ⟨1, ![E]⟩ [] [0] [] [0] [] 1 ![1])

/-- The entry gather's dimension numbers. -/
abbrev vecDims : GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry gather read at e: the operand at rho e. -/
theorem vec_gather_apply (hN : 0 < N) (x : (⟨1, ![N]⟩ : Shape).Idx → α) (idx : IVec ⟨2, ![E, 1]⟩ w) (e : Fin E) :
    Host.gather (vecDims wf) x idx (ix1 e) = x (ix1 ⟨clampRow N (idx (ix2 e (0 : Fin 1))), clampRow_lt hN _⟩) := by
  unfold Host.gather
  refine congrArg x (funext fun a => Fin.ext ?_)
  obtain rfl : a = 0 := Subsingleton.elim _ _
  have hsi : (vecDims wf).siIdx (ix1 e) ⟨List.idxOf (0 : Fin 1) (vecDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  show (vecDims wf).start (ix1 e) idx 0 + (vecDims wf).batchCoord (ix1 e) 0 + (vecDims wf).offCoord (ix1 e) 0
    = clampRow N (idx (ix2 e (0 : Fin 1)))
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl), hsi]
  rfl

end Entries

/-- A row gather as a program states it (any record with the row gather's dimension numbers), read at (e, c):
    the operand at (rho e, c). -/
theorem gather_rows_apply {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨clampRow N (idx (ix2 e (0 : Fin 1))), clampRow_lt hN _⟩ c) := by
  obtain ⟨o, cs, ob, sb, sm, iv, ss, wf⟩ := d
  simp only at h1 h2 h3 h4 h5 h6 h7
  subst h1 h2 h3 h4 h5 h6 h7
  exact rows_gather_apply wf hN x idx e c

/-- An entry gather as a program states it, read at e: the operand at rho e. -/
theorem gather_vec_apply {N E w : Nat} (hN : 0 < N)
    (d : GatherDims (⟨1, ![N]⟩ : Shape) ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨clampRow N (idx (ix2 e (0 : Fin 1))), clampRow_lt hN _⟩) := by
  obtain ⟨o, cs, ob, sb, sm, iv, ss, wf⟩ := d
  simp only at h1 h2 h3 h4 h5 h6 h7
  subst h1 h2 h3 h4 h5 h6 h7
  exact vec_gather_apply wf hN x idx e

end Cert.LibGather

end
-- ==== Proof.Spec.lean ====
/-
  The mathematics of one graph-convolution layer with self-loops and symmetric degree scaling, free of any program.

  Edges e = 0 … E − 1 carry a source and a target node id; ids are 32-bit words. A scatter-add lands update e on row n
  exactly when the target id of e, read signed, IS n (an id outside [0, N) lands nowhere), while a gather reads the row
  obtained from the id by "add N if negative" and then clamping into [0, N − 1]. With h = x · W (a sum over the 128 features),
  dinv(n) the inverse square root of the in-degree of n (0 where the degree is 0) and b the bias, the layer's entry (n, q) is

      Σ over the edges e with target n of  h(src e, q) · dinv(src e) · dinv(n)   +   b(q).

  One program scales each gathered row by dinv(src e) · dinv(tgt e) before the scatter-add ("edge form"); the other scales
  the node table by dinv first, adds the gathered rows up, and multiplies the sum by dinv(n) afterwards ("node form").
  The two agree because every edge in the sum for row n has clamped target n, multiplication of extended reals is
  associative, and a NON-NEGATIVE REAL factor distributes over a finite sum of extended reals.
-/
import Idealize.ShloMosaic.PureOps.Ideal
import Idealize.ShloMosaic.Lib.ValueIdx
import proofs.«121808_j34591666602118_2_alg».proof.Proof.LibGather

noncomputable section

namespace Cert.Spec

open Idealize.ShloMosaic Idealize.ShloMosaic.ValueIdx

/-! ## The two forms of an entry -/

section Forms

variable {N E C : ℕ}

/-- Node form: the gathered rows, already scaled at their sources, are added up for row n and the sum is scaled by
    dinv(n); the scatter-add starts from 0. -/
def nodeForm (sd : Fin E → ℤ) (cs : Fin E → Fin N) (h : Fin N → Fin C → EReal) (dinv : Fin N → EReal)
    (b : Fin C → EReal) (n : Fin N) (q : Fin C) : EReal :=
  (0 + ∑ e : Fin E, if sd e = (n.val : ℤ) then h (cs e) q * dinv (cs e) else 0) * dinv n + b q

/-- Edge form: each gathered row is scaled by dinv at its clamped source times dinv at its clamped target, then added
    up for row n. -/
def edgeForm (sd : Fin E → ℤ) (cs cd : Fin E → Fin N) (h : Fin N → Fin C → EReal) (dinv : Fin N → EReal)
    (b : Fin C → EReal) (n : Fin N) (q : Fin C) : EReal :=
  (0 + ∑ e : Fin E, if sd e = (n.val : ℤ) then h (cs e) q * (dinv (cs e) * dinv (cd e)) else 0) + b q

/-- A non-negative real factor distributes over a finite sum of extended reals (at an infinite or negative factor it
    need not: (+∞) + (−∞) = −∞ on the extended reals). -/
theorem sum_mul_of_nonneg_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The node form is the edge form, when the clamped target of every edge landing on row n is n and every dinv is a
    non-negative real. -/
theorem nodeForm_eq_edgeForm (sd : Fin E → ℤ) (cs cd : Fin E → Fin N) (h : Fin N → Fin C → EReal)
    (dinv : Fin N → EReal) (b : Fin C → EReal)
    (hcd : ∀ (e : Fin E) (n : Fin N), sd e = (n.val : ℤ) → cd e = n)
    (hd : ∀ n : Fin N, ∃ r : ℝ, 0 ≤ r ∧ dinv n = (r : EReal)) (n : Fin N) (q : Fin C) :
    nodeForm sd cs h dinv b n q = edgeForm sd cs cd h dinv b n q := by
  obtain ⟨r, hr, hrn⟩ := hd n
  unfold nodeForm edgeForm
  rw [zero_add, zero_add, hrn, sum_mul_of_nonneg_real _ _ hr]
  congr 1
  refine Finset.sum_congr rfl fun e _ => ?_
  by_cases he : sd e = (n.val : ℤ)
  · rw [if_pos he, if_pos he, hcd e n he, hrn, mul_assoc]
  · rw [if_neg he, if_neg he, zero_mul]

end Forms

/-! ## The id vectors, as both programs build them

  Shapes are the programs' literal ones: 2 × 1 600 000 edge ids, 100 000 nodes, 1 700 000 edges once every node has its
  self-loop. The side conditions of the layout operations are propositions, so any proofs of them give the same terms. -/

abbrev SEI : Shape := ⟨2, ![2, 1600000]⟩
abbrev SR1 : Shape := ⟨2, ![1, 1600000]⟩
abbrev SE0 : Shape := ⟨1, ![1600000]⟩
abbrev SN : Shape := ⟨1, ![100000]⟩
abbrev SE : Shape := ⟨1, ![1700000]⟩
abbrev SEc : Shape := ⟨2, ![1700000, 1]⟩
abbrev S0 : Shape := ⟨0, ![]⟩

/-- Row r of the edge array followed by the node numbers 0 … N − 1: the sources (r = 0) or the targets (r = 1), with one
    self-loop per node. -/
def ids (r : ℕ) (ei : IVec SEI 32) (hs : SEI.Slices ![r, 0] SR1) (hc : SR1.ShapeCasts SE0)
    (hcat : Shape.Concatenates [SE0, SN] SE 0) : IVec SE 32 :=
  concatenate SE 0 [⟨SE0, shapeCast SE0 (extractStridedSlice SR1 ![r, 0] ei hs) hc⟩, ⟨SN, iotaInDim SN 32 0⟩] hcat

/-- "if t < 0 then t + 100000 else t": what indexing does to an id before a gather. -/
def wrap (t : IVec SE 32) (h0 : S0.BroadcastsInDim SE (![] : Fin 0 → Fin 1)) : IVec SE 32 :=
  select (cmpi .slt t (broadcastInDim SE ![] h0 (constantI S0 32 0#32)))
    (addi t (broadcastInDim SE ![] h0 (constantI S0 32 100000#32))) t

/-- An id vector laid as one column, the form a gather or a scatter takes its indices in. -/
def col (t : IVec SE 32) (hb : SE.BroadcastsInDim SEc (![0] : Fin 1 → Fin 2)) : IVec SEc 32 :=
  broadcastInDim SEc ![0] hb t

/-- The id a scatter reads for edge e: the column's entry, signed. -/
def sdOf (idx : IVec SEc 32) (e : Fin 1700000) : ℤ := (idx (ix2 e (0 : Fin 1))).toInt

/-- The row a gather reads for edge e: the column's entry, signed and clamped into [0, 99999]. -/
def rowOf (idx : IVec SEc 32) (e : Fin 1700000) : Fin 100000 :=
  ⟨Cert.LibGather.clampRow 100000 (idx (ix2 e (0 : Fin 1))), Cert.LibGather.clampRow_lt (by norm_num) _⟩

/-- A column's entry (e, 0) is the vector's entry e. -/
theorem col_apply (t : IVec SE 32) (hb : SE.BroadcastsInDim SEc (![0] : Fin 1 → Fin 2)) (e : Fin 1700000) :
    col t hb (ix2 e (0 : Fin 1)) = t (ix1 e) := by
  unfold col broadcastInDim
  refine congrArg t ?_
  funext a
  refine Fin.ext ?_
  match a with
  | ⟨0, _⟩ => rfl

/-- An id that is not negative passes "add N if negative" unchanged. -/
theorem wrap_apply_of_nonneg (t : IVec SE 32) (h0 : S0.BroadcastsInDim SE (![] : Fin 0 → Fin 1)) (j : SE.Idx)
    (ht : 0 ≤ (t j).toInt) : wrap t h0 j = t j := by
  have hnot : (t j).slt 0#32 = false := by
    rw [Bool.eq_false_iff]
    intro h1
    rw [BitVec.slt_iff_toInt_lt] at h1
    have hz : (0#32 : BitVec 32).toInt = 0 := by decide
    omega
  show Scalar.select (IntOp.cmpi .slt (t j) 0#32) _ _ = _
  have hc : IntOp.cmpi .slt (t j) 0#32 = 0#1 := by
    simp only [IntOp.cmpi, hnot]
    rfl
  rw [hc]
  rfl

/-- An edge that a scatter lands on row n (its target id, signed, is n) has clamped, wrapped target n as well: a gather
    at that edge's target reads row n. -/
theorem rowOf_wrap_of_sdOf (t : IVec SE 32) (h0 : S0.BroadcastsInDim SE (![] : Fin 0 → Fin 1))
    (hb : SE.BroadcastsInDim SEc (![0] : Fin 1 → Fin 2)) (e : Fin 1700000) (n : Fin 100000)
    (h : sdOf (col t hb) e = (n.val : ℤ)) : rowOf (col (wrap t h0) hb) e = n := by
  unfold sdOf at h
  rw [col_apply] at h
  refine Fin.ext ?_
  show Cert.LibGather.clampRow 100000 (col (wrap t h0) hb (ix2 e (0 : Fin 1))) = n.val
  rw [col_apply, wrap_apply_of_nonneg t h0 (ix1 e) (by rw [h]; exact Int.natCast_nonneg _)]
  exact Cert.LibGather.clampRow_of_toInt _ n.val n.isLt h

/-! ## The float side: the product x · W, the in-degree counted two ways, and its inverse square root -/

abbrev SX : Shape := ⟨2, ![100000, 128]⟩
abbrev SW : Shape := ⟨2, ![128, 128]⟩
abbrev SB : Shape := ⟨1, ![128]⟩

/-- Entry (p, q) of x · W: the sum over the 128 features. -/
def hmat (x : SX.Idx → EReal) (w : SW.Idx → EReal) (p : Fin 100000) (q : Fin 128) : EReal :=
  ∑ k : Fin 128, x (ix2 p k) * w (ix2 k q)

/-- The bias at column q. -/
def bvec (b : SB.Idx → EReal) (q : Fin 128) : EReal := b (ix1 q)

/-- The in-degree counted in 32-bit integers (a scatter of ones by integer addition into zeros) and then converted. -/
def degInt (d : ScatterDims SN SEc SE) (idx : IVec SEc 32) (hN : S0.BroadcastsInDim SN (![] : Fin 0 → Fin 1))
    (hE : S0.BroadcastsInDim SE (![] : Fin 0 → Fin 1)) : FVec Ideal SN .f32 :=
  sitofp (F := Ideal) .f32 (Host.scatter d IntOp.addi (broadcastInDim SN ![] hN (constantI S0 32 0#32)) idx
    (broadcastInDim SE ![] hE (constantI S0 32 1#32)))

/-- The in-degree counted in floats (a scatter-add of the float one into float zeros). -/
def degFloat (d : ScatterDims SN SEc SE) (idx : IVec SEc 32) (hN : S0.BroadcastsInDim SN (![] : Fin 0 → Fin 1))
    (hE : S0.BroadcastsInDim SE (![] : Fin 0 → Fin 1)) : FVec Ideal SN .f32 :=
  Host.scatterAdd d (broadcastInDim SN ![] hN (constant (F := Ideal) S0 .f32 0x00000000#32)) idx
    (broadcastInDim SE ![] hE (constant (F := Ideal) S0 .f32 0x3F800000#32))

/-- dinv = rsqrt(deg) where deg > 0, and 0 elsewhere, as both programs spell it (the zero passed through an identity
    conversion on its way in). -/
def dinvVec (deg : FVec Ideal SN .f32) (hN : S0.BroadcastsInDim SN (![] : Fin 0 → Fin 1)) : FVec Ideal SN .f32 :=
  select (cmpf (F := Ideal) .ogt deg (broadcastInDim SN ![] hN (constant (F := Ideal) S0 .f32 0x00000000#32)))
    (Host.rsqrt deg) (broadcastInDim SN ![] hN (id (constant (F := Ideal) S0 .f32 0x00000000#32)))

/-- dinv at node p. -/
def dinvAt (dv : FVec Ideal SN .f32) (p : Fin 100000) : EReal := dv (ix1 p)

end Cert.Spec

end
-- ==== Proof.KFold.lean ====
/-
  The kernel program's host stretches, read at the buffers the two regions and the result depend on.

  Each stretch of host operations is a fold over the buffer contents it starts from. Read at one buffer, the fold is that
  buffer's operation applied to its operands' contents, and a buffer no operation of the stretch writes keeps what it held.
  Stated at an arbitrary starting valuation, these are small computations; chained from the launch memory they give, in
  the vocabulary of the specification: the raw source and target id vectors (each edge row followed by the self-loops), the
  inverse-square-root degree column the two regions read (the degree counted in integers), and the arguments unchanged.
-/
import proofs.«121808_j34591666602118_2_alg».proof.Proof.Gen.KernelIdeal.Frame
import proofs.«121808_j34591666602118_2_alg».proof.Proof.Spec

set_option maxRecDepth 16384

noncomputable section

namespace Cert.KernelIdeal.KFold

open Idealize.ShloMosaic Idealize.ShloMosaic.TcCoe Idealize.SL.Sem Idealize.ShloMosaic.StableHlo
open Cert.KernelIdeal Cert.KernelIdeal.Gen

/-! ## The vocabulary at this program's side conditions -/

/-- The targets: row 1 of the edge array, then the self-loops. -/
abbrev dstIds (ei : IVec Cert.Spec.SEI 32) : IVec Cert.Spec.SE 32 :=
  Cert.Spec.ids 1 ei slices_S2x1600000_S1x1600000_1_0 shapeCasts_S1x1600000_S1600000 concatenates_S1600000_S100000_S1700000_d0
/-- The sources: row 0 of the edge array, then the self-loops. -/
abbrev srcIds (ei : IVec Cert.Spec.SEI 32) : IVec Cert.Spec.SE 32 :=
  Cert.Spec.ids 0 ei slices_S2x1600000_S1x1600000_0_0 shapeCasts_S1x1600000_S1600000 concatenates_S1600000_S100000_S1700000_d0
/-- The raw targets as a column: what both scatters take. -/
abbrev dstCol (ei : IVec Cert.Spec.SEI 32) : IVec Cert.Spec.SEc 32 := Cert.Spec.col (dstIds ei) bcast_S1700000_S1700000x1_0
/-- The wrapped sources as a column: what the gather takes. -/
abbrev srcColW (ei : IVec Cert.Spec.SEI 32) : IVec Cert.Spec.SEc 32 :=
  Cert.Spec.col (Cert.Spec.wrap (srcIds ei) bcast_S_S1700000) bcast_S1700000_S1700000x1_0
/-- The degree, counted in integers and converted. -/
abbrev degK (ei : IVec Cert.Spec.SEI 32) : FVec Ideal Cert.Spec.SN .f32 :=
  Cert.Spec.degInt scatter_S100000_S1700000x1_S1700000_n_0_0_1 (dstCol ei) bcast_S_S100000 bcast_S_S1700000
/-- Its inverse square root, 0 where the degree is 0. -/
abbrev dinvK (ei : IVec Cert.Spec.SEI 32) : FVec Ideal Cert.Spec.SN .f32 := Cert.Spec.dinvVec (degK ei) bcast_S_S100000

variable (W : Valuation τ sig (Elt Ideal))

/-! ## The first stretch (19 operations): ids, degree, comparison, inverse square root -/

theorem first_v6 : StableHlo.after (hostOps0 (F := Ideal)) W (Proc.devRef .tc main_v6) = dstIds (W (Proc.devRef .tc main_arg1)) := by
  after_results; rfl
theorem first_v3 : StableHlo.after (hostOps0 (F := Ideal)) W (Proc.devRef .tc main_v3) = srcIds (W (Proc.devRef .tc main_arg1)) := by
  after_results; rfl
theorem first_v13 : StableHlo.after (hostOps0 (F := Ideal)) W (Proc.devRef .tc main_v13)
    = cmpf (F := Ideal) .ogt (degK (W (Proc.devRef .tc main_arg1)))
        (broadcastInDim S100000 ![] bcast_S_S100000 (constant (F := Ideal) S_ .f32 0x00000000#32)) := by
  after_results; rfl
theorem first_v14 : StableHlo.after (hostOps0 (F := Ideal)) W (Proc.devRef .tc main_v14)
    = Host.rsqrt (degK (W (Proc.devRef .tc main_arg1))) := by
  after_results; rfl
theorem first_cst_1 : StableHlo.after (hostOps0 (F := Ideal)) W (Proc.devRef .tc main_cst_1)
    = constant (F := Ideal) S_ .f32 0x00000000#32 := by
  after_results
theorem first_arg0 : StableHlo.after (hostOps0 (F := Ideal)) W (Proc.devRef .tc main_arg0) = W (Proc.devRef .tc main_arg0) := by
  after_results
theorem first_arg2 : StableHlo.after (hostOps0 (F := Ideal)) W (Proc.devRef .tc main_arg2) = W (Proc.devRef .tc main_arg2) := by
  after_results
theorem first_arg3 : StableHlo.after (hostOps0 (F := Ideal)) W (Proc.devRef .tc main_arg3) = W (Proc.devRef .tc main_arg3) := by
  after_results

/-! ## The second stretch (the inlined select of "where"), the third (the reshape to a column) and the middle one -/

theorem second_v15 : StableHlo.after (hostOps0_1 (F := Ideal)) W (Proc.devRef .tc main_v15)
    = select (W (Proc.devRef .tc main_v13)) (W (Proc.devRef .tc main_v14))
        (broadcastInDim S100000 ![] bcast_S_S100000 (id (W (Proc.devRef .tc main_cst_1)))) := by
  after_results; rfl
theorem second_v6 : StableHlo.after (hostOps0_1 (F := Ideal)) W (Proc.devRef .tc main_v6) = W (Proc.devRef .tc main_v6) := by
  after_results
theorem second_v3 : StableHlo.after (hostOps0_1 (F := Ideal)) W (Proc.devRef .tc main_v3) = W (Proc.devRef .tc main_v3) := by
  after_results
theorem second_arg0 : StableHlo.after (hostOps0_1 (F := Ideal)) W (Proc.devRef .tc main_arg0) = W (Proc.devRef .tc main_arg0) := by
  after_results
theorem second_arg2 : StableHlo.after (hostOps0_1 (F := Ideal)) W (Proc.devRef .tc main_arg2) = W (Proc.devRef .tc main_arg2) := by
  after_results
theorem second_arg3 : StableHlo.after (hostOps0_1 (F := Ideal)) W (Proc.devRef .tc main_arg3) = W (Proc.devRef .tc main_arg3) := by
  after_results

theorem third_v16 : StableHlo.after (hostOps0_2 (F := Ideal)) W (Proc.devRef .tc main_v16)
    = shapeCast S100000x1 (W (Proc.devRef .tc main_v15)) shapeCasts_S100000_S100000x1 := by
  after_results; rfl
theorem third_v6 : StableHlo.after (hostOps0_2 (F := Ideal)) W (Proc.devRef .tc main_v6) = W (Proc.devRef .tc main_v6) := by
  after_results
theorem third_v3 : StableHlo.after (hostOps0_2 (F := Ideal)) W (Proc.devRef .tc main_v3) = W (Proc.devRef .tc main_v3) := by
  after_results
theorem third_arg0 : StableHlo.after (hostOps0_2 (F := Ideal)) W (Proc.devRef .tc main_arg0) = W (Proc.devRef .tc main_arg0) := by
  after_results
theorem third_arg2 : StableHlo.after (hostOps0_2 (F := Ideal)) W (Proc.devRef .tc main_arg2) = W (Proc.devRef .tc main_arg2) := by
  after_results
theorem third_arg3 : StableHlo.after (hostOps0_2 (F := Ideal)) W (Proc.devRef .tc main_arg3) = W (Proc.devRef .tc main_arg3) := by
  after_results

/-- The scattered sums: the rows of region 0's output gathered at the wrapped sources (the change of format is the
    identity on the extended reals) and added up at the raw targets, from zeros. -/
theorem fourth_v28 : StableHlo.after (hostOps1 (F := Ideal)) W (Proc.devRef .tc main_v28)
    = Host.scatterAdd scatter_S100000x128_S1700000x1_S1700000x128_1_0_0_1
        (broadcastInDim S100000x128 ![] bcast_S_S100000x128 (constant (F := Ideal) S_ .f32 0x00000000#32))
        (Cert.Spec.col (W (Proc.devRef .tc main_v6)) bcast_S1700000_S1700000x1_0)
        (extf .f32 (Host.gather gather_S100000x128_S1700000x1_S1700000x128_1_0_n_n_0_1_1128 (W (Proc.devRef .tc main_v17))
          (Cert.Spec.col (Cert.Spec.wrap (W (Proc.devRef .tc main_v3)) bcast_S_S1700000) bcast_S1700000_S1700000x1_0))
          bitsLt_bf16_f32) := by
  after_results; rfl
theorem fourth_v29 : StableHlo.after (hostOps1 (F := Ideal)) W (Proc.devRef .tc main_v29)
    = shapeCast S1x128 (W (Proc.devRef .tc main_arg3)) shapeCasts_S128_S1x128 := by
  after_results; rfl
theorem fourth_v16 : StableHlo.after (hostOps1 (F := Ideal)) W (Proc.devRef .tc main_v16) = W (Proc.devRef .tc main_v16) := by
  after_results

/-! ## From the launch memory to region 0's entry -/

section Chain

variable (m : (ℓ : Loc nD τ sig) → Buf (Elt Ideal) ℓ) (ρ : Dev nD → PrngReg) (c : Dev nD)

theorem W3_v6 : W3 m ρ c (Proc.devRef .tc main_v6) = dstIds (m ((c.tc : Thread nD τ).loc main_arg1)) :=
  (third_v6 (W2 m ρ c)).trans ((second_v6 (W1 m ρ c)).trans (first_v6 (W0 m ρ c)))
theorem W3_v3 : W3 m ρ c (Proc.devRef .tc main_v3) = srcIds (m ((c.tc : Thread nD τ).loc main_arg1)) :=
  (third_v3 (W2 m ρ c)).trans ((second_v3 (W1 m ρ c)).trans (first_v3 (W0 m ρ c)))
theorem W3_arg0 : W3 m ρ c (Proc.devRef .tc main_arg0) = m ((c.tc : Thread nD τ).loc main_arg0) :=
  (third_arg0 (W2 m ρ c)).trans ((second_arg0 (W1 m ρ c)).trans (first_arg0 (W0 m ρ c)))
theorem W3_arg2 : W3 m ρ c (Proc.devRef .tc main_arg2) = m ((c.tc : Thread nD τ).loc main_arg2) :=
  (third_arg2 (W2 m ρ c)).trans ((second_arg2 (W1 m ρ c)).trans (first_arg2 (W0 m ρ c)))
theorem W3_arg3 : W3 m ρ c (Proc.devRef .tc main_arg3) = m ((c.tc : Thread nD τ).loc main_arg3) :=
  (third_arg3 (W2 m ρ c)).trans ((second_arg3 (W1 m ρ c)).trans (first_arg3 (W0 m ρ c)))

/-- The column both regions read: dinv of the integer-counted degree, as an N × 1 array. -/
theorem W3_v16 : W3 m ρ c (Proc.devRef .tc main_v16)
    = shapeCast S100000x1 (dinvK (m ((c.tc : Thread nD τ).loc main_arg1))) shapeCasts_S100000_S100000x1 := by
  refine (third_v16 (W2 m ρ c)).trans ?_
  rw [show W2 m ρ c (Proc.devRef .tc main_v15) = _ from second_v15 (W1 m ρ c),
    show W1 m ρ c (Proc.devRef .tc main_v13) = _ from first_v13 (W0 m ρ c),
    show W1 m ρ c (Proc.devRef .tc main_v14) = _ from first_v14 (W0 m ρ c),
    show W1 m ρ c (Proc.devRef .tc main_cst_1) = _ from first_cst_1 (W0 m ρ c)]
  rfl

end Chain

/-! ## Across region 0 and the middle stretch: what region 1 finds -/

section Mid

variable (m : (ℓ : Loc nD τ sig) → Buf (Elt Ideal) ℓ) (ρ : Dev nD → PrngReg) (c : Dev nD)

/-- Region 0 writes only its output array: the id vectors and the bias pass it unchanged, -/
theorem W4_v6 : W4 m ρ c (Proc.devRef .tc main_v6) = dstIds (m ((c.tc : Thread nD τ).loc main_arg1)) :=
  (W4_of_ne m ρ c main_v6 (by decide)).trans (W3_v6 m ρ c)
theorem W4_v3 : W4 m ρ c (Proc.devRef .tc main_v3) = srcIds (m ((c.tc : Thread nD τ).loc main_arg1)) :=
  (W4_of_ne m ρ c main_v3 (by decide)).trans (W3_v3 m ρ c)
theorem W4_arg3 : W4 m ρ c (Proc.devRef .tc main_arg3) = m ((c.tc : Thread nD τ).loc main_arg3) :=
  (W4_of_ne m ρ c main_arg3 (by decide)).trans (W3_arg3 m ρ c)
/-- and the dinv column, an input window of region 0, is left as it was found. -/
theorem W4_v16 : W4 m ρ c (Proc.devRef .tc main_v16)
    = shapeCast S100000x1 (dinvK (m ((c.tc : Thread nD τ).loc main_arg1))) shapeCasts_S100000_S100000x1 :=
  ((W4_arr m ρ c 1).trans (((dat0 (V3 m ρ) c).arrAt_in 1 rfl _).trans (A_eq0 (V3 m ρ) c 1))).trans (W3_v16 m ρ c)

/-- Region 1's first input: region 0's output rows gathered at the wrapped sources and added up at the raw targets. -/
theorem V5_v28 : V5 m ρ c main_v28
    = Host.scatterAdd scatter_S100000x128_S1700000x1_S1700000x128_1_0_0_1
        (broadcastInDim S100000x128 ![] bcast_S_S100000x128 (constant (F := Ideal) S_ .f32 0x00000000#32))
        (dstCol (m ((c.tc : Thread nD τ).loc main_arg1)))
        (extf .f32 (Host.gather gather_S100000x128_S1700000x1_S1700000x128_1_0_n_n_0_1_1128 (W4 m ρ c (Proc.devRef .tc main_v17))
          (srcColW (m ((c.tc : Thread nD τ).loc main_arg1)))) bitsLt_bf16_f32) := by
  refine (fourth_v28 (W4 m ρ c)).trans ?_
  rw [W4_v6 m ρ c, W4_v3 m ρ c]
/-- Its second input: the same dinv column region 0 read. -/
theorem V5_v16 : V5 m ρ c main_v16
    = shapeCast S100000x1 (dinvK (m ((c.tc : Thread nD τ).loc main_arg1))) shapeCasts_S100000_S100000x1 :=
  (fourth_v16 (W4 m ρ c)).trans (W4_v16 m ρ c)
/-- Its third input: the bias as one row. -/
theorem V5_v29 : V5 m ρ c main_v29 = shapeCast S1x128 (m ((c.tc : Thread nD τ).loc main_arg3)) shapeCasts_S128_S1x128 := by
  refine (fourth_v29 (W4 m ρ c)).trans ?_
  rw [W4_arg3 m ρ c]

end Mid

end Cert.KernelIdeal.KFold

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.Regions.lean ====
/-
  What each of the kernel's two grid regions leaves in its output array, as one function of the arrays the region
  finds, index by index.

  Both regions walk the 100000 rows in 20 blocks of 5000 rows.  At every grid point the body reads the point's block
  of each input, computes one value per entry, and stores the result block; the blocks tile the output array, so after
  the last point the output array is one function of the input arrays:

  * region 1 (the pointwise one): out (p, q) = s (p, q) · d (p, 0) + b (0, q);
  * region 0 (the matrix product): out (p, q) = (Σ_k x (p, k) · w (k, q)) · d (p, 0).

  On the extended reals a change of float format is the identity, and a product accumulated into the zero splat is
  the plain sum over the contracted coordinate.
-/
import proofs.«121808_j34591666602118_2_alg».proof.Proof.Gen.KernelIdeal.Frame
import proofs.«121808_j34591666602118_2_alg».proof.Proof.LibDot
import proofs.«121808_j34591666602118_2_alg».proof.Proof.LibColumn
import Idealize.ShloMosaic.Lib.Pipeline.Value
import Idealize.ShloMosaic.Lib.ValueIdx
import Idealize.ShloMosaic.PureOps.Ideal.Laws

noncomputable section

namespace Cert.KernelIdeal.KValue

open Idealize.ShloMosaic Idealize.ShloMosaic.ValueIdx Cert.KernelIdeal
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, however they are spelt. -/
theorem zero_offsets : (![0, 0] : Fin 2 → Nat) = fun _ => 0 := funext fun a => by fin_cases a <;> rfl

/-! ## Region 1: scale each row of the sums and add the bias row -/

/-- A 1 × n row broadcast down a rows reads, at (r, q), the row's entry (0, q). -/
theorem broadcastTo_1n_an_apply {α : Type} {a n : ℕ} (v : (⟨2, ![1, n]⟩ : Shape).Idx → α)
    (h : (⟨2, ![1, n]⟩ : Shape).Broadcasts ⟨2, ![a, n]⟩) (r : Fin a) (q : Fin n) :
    broadcastTo ⟨2, ![a, n]⟩ v h (ix2 r q) = v (ix2 (0 : Fin 1) q) := by
  refine broadcastTo_apply v h (ix2 r q) (ix2 (0 : Fin 1) q) fun ax => ?_
  match ax with
  | ⟨0, _⟩ =>
    show 0 = if (1 : ℕ) = 1 then 0 else r.val
    rw [if_pos rfl]
  | ⟨1, _⟩ =>
    show q.val = if n = 1 then 0 else q.val
    split
    · have := q.isLt; omega
    · rfl

/-- The body's value at entry (r, q) of a block: the sums' entry times the row's scale, plus the bias of the column. -/
theorem finalize_payload_apply (d : Vec Ideal S5000x1 .f32) (b : Vec Ideal S1x128 .f32) (s : Vec Ideal S5000x128 .f32)
    (r : Fin 5000) (q : Fin 128) :
    (Gen.k1_pay1 d b s : S5000x128.Idx → EReal) (ix2 r q)
      = (s : S5000x128.Idx → EReal) (ix2 r q) * (d : S5000x1.Idx → EReal) (ix2 r (0 : Fin 1))
          + (b : S1x128.Idx → EReal) (ix2 (0 : Fin 1) q) := by
  unfold Gen.k1_pay1
  rw [addf_apply, mulf_apply]
  simp only [shapeCast_self]
  rw [Cert.LibColumn.broadcastTo_a1_ab_apply, broadcastTo_1n_an_apply]

/-- What region 1 leaves in its output array, from the arrays it finds: the sums s, the scale column d, the
    bias row b. -/
def G1 (s : S100000x128.Idx → EReal) (d : S100000x1.Idx → EReal) (b : S1x128.Idx → EReal) : S100000x128.Idx → EReal :=
  fun i => s i * d (ix2 (⟨(i 0).val, idx2_lt0 i⟩ : Fin 100000) (0 : Fin 1))
    + b (ix2 (0 : Fin 1) (⟨(i 1).val, idx2_lt1 i⟩ : Fin 128))

/-- G1 at the entry (p, q). -/
theorem G1_apply (s : S100000x128.Idx → EReal) (d : S100000x1.Idx → EReal) (b : S1x128.Idx → EReal)
    (p : Fin 100000) (q : Fin 128) :
    G1 s d b (ix2 p q) = s (ix2 p q) * d (ix2 p (0 : Fin 1)) + b (ix2 (0 : Fin 1) q) := rfl

/-- The printed index maps of region 1, at every grid point: the sums, the scale column and the output move together,
    one block of rows per point, and the bias row stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the sums, at (r, q), is the sums array at row 5000 t + r, column q. -/
theorem sums_block_apply (c : Dev nD) (t : Fin cfg1.N) (r : Fin 5000) (q : Fin 128) (k : S100000x128.Idx)
    (hk0 : (k 0).val = 5000 * t.val + r.val) (hk1 : (k 1).val = q.val) :
    (Gen.iblk1 V c 0 t : S5000x128.Idx → EReal) (ix2 r q) = (V c main_v28 : S100000x128.Idx → EReal) k := by
  obtain ⟨e00, e01, -⟩ := idx_facts1 t
  unfold Gen.iblk1
  rw [View.read_apply]
  show V c main_v28 _ = V c main_v28 _
  congr 1
  funext a
  apply Fin.ext
  match a with
  | ⟨0, _⟩ => show win1_0.index t (0 : Fin 2) * 5000 + 1 * r.val = (k 0).val; rw [e00, hk0]; omega
  | ⟨1, _⟩ => show win1_0.index t (1 : Fin 2) * 128 + 1 * q.val = (k 1).val; rw [e01, hk1]; omega

/-- Block t of the scale column, at (r, 0), is the column at row 5000 t + r. -/
theorem scale_block1_apply (c : Dev nD) (t : Fin cfg1.N) (r : Fin 5000) (u : Fin 1) (k : S100000x1.Idx)
    (hk0 : (k 0).val = 5000 * t.val + r.val) :
    (Gen.iblk1 V c 1 t : S5000x1.Idx → EReal) (ix2 r u) = (V c main_v16 : S100000x1.Idx → EReal) k := by
  obtain ⟨-, -, e10, e11, -⟩ := idx_facts1 t
  unfold Gen.iblk1
  rw [View.read_apply]
  show V c main_v16 _ = V c main_v16 _
  congr 1
  funext a
  apply Fin.ext
  match a with
  | ⟨0, _⟩ => show win1_1.index t (0 : Fin 2) * 5000 + 1 * r.val = (k 0).val; rw [e10, hk0]; omega
  | ⟨1, _⟩ =>
    show win1_1.index t (1 : Fin 2) * 1 + 1 * u.val = (k 1).val
    have h1 : (k 1).val < 1 := idx2_lt1 k
    rw [e11]; omega

/-- The bias row is read whole at every point. -/
theorem bias_block_apply (c : Dev nD) (t : Fin cfg1.N) (u : Fin 1) (q : Fin 128) (k : S1x128.Idx)
    (hk1 : (k 1).val = q.val) :
    (Gen.iblk1 V c 2 t : S1x128.Idx → EReal) (ix2 u q) = (V c main_v29 : S1x128.Idx → EReal) k := by
  obtain ⟨-, -, -, -, e20, e21, -⟩ := idx_facts1 t
  unfold Gen.iblk1
  rw [View.read_apply]
  show V c main_v29 _ = V c main_v29 _
  congr 1
  funext a
  apply Fin.ext
  match a with
  | ⟨0, _⟩ =>
    show win1_2.index t (0 : Fin 2) * 1 + 1 * u.val = (k 0).val
    have h0 : (k 0).val < 1 := idx2_lt0 k
    rw [e20]; omega
  | ⟨1, _⟩ => show win1_2.index t (1 : Fin 2) * 128 + 1 * q.val = (k 1).val; rw [e21, hk1]; omega

/-- What grid point t writes back is block t of G1 of the arrays the region finds. -/
theorem flushed1_eq (c : Dev nD) (t : Fin cfg1.N) :
    (Gen.dat1 (F := Ideal) V c).flushed 3 t
      = ((cfg1.win 3).blk t).view.read (Elt Ideal) (G1 (V c main_v28) (V c main_v16) (V c main_v29)) := by
  show (cfg1.win 3).cut (grid1.coords t) ((Gen.dat1 (F := Ideal) V c).after 3 t) = _
  rw [Gen.after1_3]
  unfold Gen.out1_3
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, e30, e31⟩ := idx_facts1 t
  funext j
  obtain ⟨r, q, rfl⟩ : ∃ (r : Fin 5000) (q : Fin 128), (j : S5000x128.Idx) = ix2 r q := ⟨j 0, j 1, eq_ix2 j⟩
  refine (finalize_payload_apply _ _ _ r q).trans ?_
  rw [View.read_apply]
  refine congrArg₂ (· + ·) (congrArg₂ (· * ·) ?_ ?_) ?_
  · refine sums_block_apply V c t r q _ ?_ ?_
    · show win1_3.index t (0 : Fin 2) * 5000 + 1 * r.val = _; rw [e30]; omega
    · show win1_3.index t (1 : Fin 2) * 128 + 1 * q.val = _; rw [e31]; omega
  · refine scale_block1_apply V c t r 0 _ ?_
    show win1_3.index t (0 : Fin 2) * 5000 + 1 * r.val = _; rw [e30]; omega
  · refine bias_block_apply V c t 0 q _ ?_
    show win1_3.index t (1 : Fin 2) * 128 + 1 * q.val = _; rw [e31]; omega

/-- An index of the output array is in point t's block iff each coordinate is in the block's range on its axis. -/
theorem mem_out_block1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v30).slice (win1_3.rect t)).set ↔ _
  rw [View.set_slice_whole, Rect.mem_set_unit]
  exact Iff.rfl

/-- Every grid point of region 1 writes its output block back. -/
theorem flush_out1 : ∀ t : Fin cfg1.N, (cfg1.win 3).flush t = true :=
  (by decide +kernel : ∀ t : Fin grid1.N, _)

/-- The 20 blocks of 5000 rows cover the output array: row p is in the block of point p / 5000. -/
theorem cover_out1 (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  have hN : cfg1.N = 20 := Gen.N_1
  let t : Fin cfg1.N := ⟨(i 0).val / 5000, by rw [hN]; omega⟩
  obtain ⟨-, -, -, -, -, -, e30, e31⟩ := idx_facts1 t
  have ht : t.val = (i 0).val / 5000 := rfl
  refine ⟨t, flush_out1 t, ?_⟩
  rw [mem_out_block1]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 128 ≤ (i 1).val ∧ (i 1).val < win1_3.index t (1 : Fin 2) * 128 + 128
    rw [e31]; omega

/-- The output array of region 1 after its 20 points, as one function of the arrays the region finds. -/
theorem final1 (c : Dev nD) :
    (Gen.dat1 (F := Ideal) V c).arrAt 3 cfg1.N = G1 (V c main_v28) (V c main_v16) (V c main_v29) :=
  (Gen.dat1 (F := Ideal) V c).arrAt_eq_of_cover 3 (G1 (V c main_v28) (V c main_v16) (V c main_v29))
    (fun t _ => flushed1_eq V c t) cover_out1

/-- Region 1's output at (p, q): the sums' entry times the row's scale, plus the column's bias. -/
theorem final1_apply (c : Dev nD) (p : Fin 100000) (q : Fin 128) :
    ((Gen.dat1 (F := Ideal) V c).arrAt 3 cfg1.N : S100000x128.Idx → EReal) (ix2 p q)
      = HAdd.hAdd (α := EReal) (β := EReal) (γ := EReal)
          (HMul.hMul (α := EReal) (β := EReal) (γ := EReal)
            ((V c main_v28 : S100000x128.Idx → EReal) (ix2 p q)) ((V c main_v16 : S100000x1.Idx → EReal) (ix2 p (0 : Fin 1))))
          ((V c main_v29 : S1x128.Idx → EReal) (ix2 (0 : Fin 1) q)) := by
  rw [final1]
  rfl

/-! ## Region 0: the matrix product, each row scaled -/

/-- The body's value at entry (r, q) of a block: row r of the block of x against column q of w, summed over the 128
    contracted coordinates, times the row's scale. -/
theorem matmul_scale_payload_apply (x : Vec Ideal S5000x128 .f32) (w : Vec Ideal S128x128 .f32) (d : Vec Ideal S5000x1 .f32)
    (r : Fin 5000) (q : Fin 128) :
    (Gen.k0_pay1 x w d : S5000x128.Idx → EReal) (ix2 r q)
      = (∑ k : Fin 128, (x : S5000x128.Idx → EReal) (ix2 r k) * (w : S128x128.Idx → EReal) (ix2 k q))
          * (d : S5000x1.Idx → EReal) (ix2 r (0 : Fin 1)) := by
  unfold Gen.k0_pay1
  rw [truncf_apply, mulf_apply]
  simp only [shapeCast_self]
  rw [Cert.LibColumn.broadcastTo_a1_ab_apply]
  refine congrArg (· * (d : S5000x1.Idx → EReal) (ix2 r (0 : Fin 1))) ?_
  exact Cert.LibDot.matmul_zero_plain_apply dot_S5000x128_S128x128_S5000x128_1_0_0_1_n_n rfl rfl rfl rfl rfl rfl none _ _ (ix2 r q)

/-- What region 0 leaves in its output array, from the arrays it finds: the features x, the scale column d, the
    weights w. -/
def G0 (x : S100000x128.Idx → EReal) (d : S100000x1.Idx → EReal) (w : S128x128.Idx → EReal) : S100000x128.Idx → EReal :=
  fun i => (∑ k : Fin 128, x (ix2 (⟨(i 0).val, idx2_lt0 i⟩ : Fin 100000) k) * w (ix2 k (⟨(i 1).val, idx2_lt1 i⟩ : Fin 128)))
    * d (ix2 (⟨(i 0).val, idx2_lt0 i⟩ : Fin 100000) (0 : Fin 1))

/-- G0 at the entry (p, q). -/
theorem G0_apply (x : S100000x128.Idx → EReal) (d : S100000x1.Idx → EReal) (w : S128x128.Idx → EReal)
    (p : Fin 100000) (q : Fin 128) :
    G0 x d w (ix2 p q) = (∑ k : Fin 128, x (ix2 p k) * w (ix2 k q)) * d (ix2 p (0 : Fin 1)) := rfl

/-- The printed index maps of region 0, at every grid point: the features, the scale column and the output move
    together, one block of rows per point, and the weights stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the features, at (r, k), is the feature array at row 5000 t + r, column k. -/
theorem features_block_apply (c : Dev nD) (t : Fin cfg0.N) (r : Fin 5000) (k : Fin 128) (i : S100000x128.Idx)
    (hi0 : (i 0).val = 5000 * t.val + r.val) (hi1 : (i 1).val = k.val) :
    (Gen.iblk0 V c 0 t : S5000x128.Idx → EReal) (ix2 r k) = (V c main_arg0 : S100000x128.Idx → EReal) i := by
  obtain ⟨e00, e01, -⟩ := idx_facts0 t
  unfold Gen.iblk0
  rw [View.read_apply]
  show V c main_arg0 _ = V c main_arg0 _
  congr 1
  funext a
  apply Fin.ext
  match a with
  | ⟨0, _⟩ => show win0_0.index t (0 : Fin 2) * 5000 + 1 * r.val = (i 0).val; rw [e00, hi0]; omega
  | ⟨1, _⟩ => show win0_0.index t (1 : Fin 2) * 128 + 1 * k.val = (i 1).val; rw [e01, hi1]; omega

/-- Block t of the scale column, at (r, 0), is the column at row 5000 t + r. -/
theorem scale_block0_apply (c : Dev nD) (t : Fin cfg0.N) (r : Fin 5000) (u : Fin 1) (i : S100000x1.Idx)
    (hi0 : (i 0).val = 5000 * t.val + r.val) :
    (Gen.iblk0 V c 1 t : S5000x1.Idx → EReal) (ix2 r u) = (V c main_v16 : S100000x1.Idx → EReal) i := by
  obtain ⟨-, -, e10, e11, -⟩ := idx_facts0 t
  unfold Gen.iblk0
  rw [View.read_apply]
  show V c main_v16 _ = V c main_v16 _
  congr 1
  funext a
  apply Fin.ext
  match a with
  | ⟨0, _⟩ => show win0_1.index t (0 : Fin 2) * 5000 + 1 * r.val = (i 0).val; rw [e10, hi0]; omega
  | ⟨1, _⟩ =>
    show win0_1.index t (1 : Fin 2) * 1 + 1 * u.val = (i 1).val
    have h1 : (i 1).val < 1 := idx2_lt1 i
    rw [e11]; omega

/-- The weights are read whole at every point. -/
theorem weights_block_apply (c : Dev nD) (t : Fin cfg0.N) (k : Fin 128) (q : Fin 128) (i : S128x128.Idx)
    (hi0 : (i 0).val = k.val) (hi1 : (i 1).val = q.val) :
    (Gen.iblk0 V c 2 t : S128x128.Idx → EReal) (ix2 k q) = (V c main_arg2 : S128x128.Idx → EReal) i := by
  obtain ⟨-, -, -, -, e20, e21, -⟩ := idx_facts0 t
  unfold Gen.iblk0
  rw [View.read_apply]
  show V c main_arg2 _ = V c main_arg2 _
  congr 1
  funext a
  apply Fin.ext
  match a with
  | ⟨0, _⟩ => show win0_2.index t (0 : Fin 2) * 128 + 1 * k.val = (i 0).val; rw [e20, hi0]; omega
  | ⟨1, _⟩ => show win0_2.index t (1 : Fin 2) * 128 + 1 * q.val = (i 1).val; rw [e21, hi1]; omega

/-- What grid point t writes back is block t of G0 of the arrays the region finds. -/
theorem flushed0_eq (c : Dev nD) (t : Fin cfg0.N) :
    (Gen.dat0 (F := Ideal) V c).flushed 3 t
      = ((cfg0.win 3).blk t).view.read (Elt Ideal) (G0 (V c main_arg0) (V c main_v16) (V c main_arg2)) := by
  show (cfg0.win 3).cut (grid0.coords t) ((Gen.dat0 (F := Ideal) V c).after 3 t) = _
  rw [Gen.after0_3]
  unfold Gen.out0_3
  rw [View.canon_unit_zero zero_offsets]
  simp only [View.ld_unit_zero (S := S5000x128) zero_offsets, View.ld_unit_zero (S := S5000x1) zero_offsets,
    View.ld_unit_zero (S := S128x128) zero_offsets]
  obtain ⟨-, -, -, -, -, -, e30, e31⟩ := idx_facts0 t
  funext j
  obtain ⟨r, q, rfl⟩ : ∃ (r : Fin 5000) (q : Fin 128), (j : S5000x128.Idx) = ix2 r q := ⟨j 0, j 1, eq_ix2 j⟩
  refine (matmul_scale_payload_apply _ _ _ r q).trans ?_
  rw [View.read_apply]
  refine congrArg₂ (· * ·) (Finset.sum_congr rfl fun k _ => congrArg₂ (· * ·) ?_ ?_) ?_
  · refine features_block_apply V c t r k _ ?_ rfl
    show win0_3.index t (0 : Fin 2) * 5000 + 1 * r.val = _; rw [e30]; omega
  · refine weights_block_apply V c t k q _ rfl ?_
    show win0_3.index t (1 : Fin 2) * 128 + 1 * q.val = _; rw [e31]; omega
  · refine scale_block0_apply V c t r 0 _ ?_
    show win0_3.index t (0 : Fin 2) * 5000 + 1 * r.val = _; rw [e30]; omega

/-- An index of the output array is in point t's block iff each coordinate is in the block's range on its axis. -/
theorem mem_out_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Every grid point of region 0 writes its output block back. -/
theorem flush_out0 : ∀ t : Fin cfg0.N, (cfg0.win 3).flush t = true :=
  (by decide +kernel : ∀ t : Fin grid0.N, _)

/-- The 20 blocks of 5000 rows cover the output array: row p is in the block of point p / 5000. -/
theorem cover_out0 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := Gen.N_0
  let t : Fin cfg0.N := ⟨(i 0).val / 5000, by rw [hN]; omega⟩
  obtain ⟨-, -, -, -, -, -, e30, e31⟩ := idx_facts0 t
  have ht : t.val = (i 0).val / 5000 := rfl
  refine ⟨t, flush_out0 t, ?_⟩
  rw [mem_out_block0]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 128 ≤ (i 1).val ∧ (i 1).val < win0_3.index t (1 : Fin 2) * 128 + 128
    rw [e31]; omega

/-- The output array of region 0 after its 20 points, as one function of the arrays the region finds. -/
theorem final0 (c : Dev nD) :
    (Gen.dat0 (F := Ideal) V c).arrAt 3 cfg0.N = G0 (V c main_arg0) (V c main_v16) (V c main_arg2) :=
  (Gen.dat0 (F := Ideal) V c).arrAt_eq_of_cover 3 (G0 (V c main_arg0) (V c main_v16) (V c main_arg2))
    (fun t _ => flushed0_eq V c t) cover_out0

/-- Region 0's output at (p, q): row p of the features against column q of the weights, summed over the 128
    contracted coordinates, times the row's scale. -/
theorem final0_apply (c : Dev nD) (p : Fin 100000) (q : Fin 128) :
    ((Gen.dat0 (F := Ideal) V c).arrAt 3 cfg0.N : S100000x128.Idx → EReal) (ix2 p q)
      = HMul.hMul (α := EReal) (β := EReal) (γ := EReal)
          (∑ k : Fin 128, HMul.hMul (α := EReal) (β := EReal) (γ := EReal)
            ((V c main_arg0 : S100000x128.Idx → EReal) (ix2 p k)) ((V c main_arg2 : S128x128.Idx → EReal) (ix2 k q)))
          ((V c main_v16 : S100000x1.Idx → EReal) (ix2 p (0 : Fin 1))) := by
  rw [final0]
  rfl

end Cert.KernelIdeal.KValue

end
-- ==== Proof.LibScatter.lean ====
/-
  A row scatter-add read at an entry, on the extended reals.

  The lowering of a segment sum: an N × C operand, E update rows of C columns, and one scalar row index per update row
  (an E × 1 index array); update row e is added into operand row idx(e). On the extended reals the result's entry (n, c)
  is the operand's entry plus the sum, over the update rows e whose index (read signed) equals n, of the update's entry
  (e, c): an update lands on (n, c) exactly when its row index is n and its column is c, and an index outside
  [0, N) lands nowhere. It holds for every extent N, E, C.
-/
import Idealize.ShloMosaic.PureOps.Ideal
import Idealize.ShloMosaic.Lib.ValueIdx

noncomputable section

namespace Cert.LibScatter

open Idealize.ShloMosaic Idealize.ShloMosaic.ValueIdx

section Rows

variable {N E C w : Nat}
  (wf : ScatterDims.WF (⟨2, ![N, C]⟩ : Shape) ⟨2, ![E, 1]⟩ ⟨2, ![E, C]⟩ [1] [0] [0] 1)

/-- The row scatter's dimension numbers: window axis 1 of the updates, inserted axis 0 of the operand, the one
    index component goes to operand axis 0, and the index vector lies along axis 1 of the indices. -/
abbrev rowDims : ScatterDims (⟨2, ![N, C]⟩ : Shape) ⟨2, ![E, 1]⟩ ⟨2, ![E, C]⟩ := ⟨[1], [0], [0], 1, wf⟩

/-- On operand axis 0 the window of update entry (e, c') starts at row e's index, read signed: the one index component
    goes to axis 0, and it is read at (e, 0) of the indices. -/
theorem rows_start0 (idx : IVec ⟨2, ![E, 1]⟩ w) (e : Fin E) (c' : Fin C) :
    (rowDims wf).start (ix2 e c') idx 0 = (idx (ix2 e (0 : Fin 1))).toInt := by
  unfold ScatterDims.start
  rw [dif_pos (show (0 : Fin 2) ∈ (rowDims wf).scatterDimsToOperandDims from List.mem_singleton.mpr rfl)]
  have hsi : (rowDims wf).siIdx (ix2 e c') ⟨List.idxOf (0 : Fin 2) (rowDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which no index component goes to, every window starts at 0. -/
theorem rows_start1 (idx : IVec ⟨2, ![E, 1]⟩ w) (j : (⟨2, ![E, C]⟩ : Shape).Idx) :
    (rowDims wf).start j idx 1 = 0 := by
  unfold ScatterDims.start
  have h : (1 : Fin 2) ∉ (rowDims wf).scatterDimsToOperandDims :=
    (by decide : (1 : Fin 2) ∉ ([0] : List (Fin 2)))
  rw [dif_neg h]

/-- Operand axis 0 is inserted, so the window coordinate on it is 0. -/
theorem rows_window0 (j : (⟨2, ![E, C]⟩ : Shape).Idx) : (rowDims wf).window j 0 = 0 := by
  unfold ScatterDims.window
  have h : (0 : Fin 2) ∉ (rowDims wf).sKept :=
    (by decide : (0 : Fin 2) ∉ (List.finRange 2).filter (· ∉ ([0] : List (Fin 2))))
  rw [dif_neg h]

/-- Operand axis 1 is the one kept axis; the window coordinate on it is the update entry's column. -/
theorem rows_window1 (e : Fin E) (c' : Fin C) : (rowDims wf).window (ix2 e c') 1 = c'.val := by
  unfold ScatterDims.window
  have h : (1 : Fin 2) ∈ (rowDims wf).sKept :=
    (by decide : (1 : Fin 2) ∈ (List.finRange 2).filter (· ∉ ([0] : List (Fin 2))))
  rw [dif_pos h]
  rfl

/-- An update entry (e, c') lands on the operand entry (n, c) exactly when row e's index, read signed, is n and the
    columns agree: on axis 0 the result coordinate is the index itself (window coordinate 0), on axis 1 it is the
    window coordinate c' (start 0); an index outside [0, N) lands nowhere. -/
theorem rows_resultIdx?_eq_some_iff (idx : IVec ⟨2, ![E, 1]⟩ w) (e : Fin E) (c' : Fin C) (n : Fin N) (c : Fin C) :
    (rowDims wf).resultIdx? (ix2 e c') idx = some (ix2 n c)
      ↔ (idx (ix2 e (0 : Fin 1))).toInt = (n.val : Int) ∧ c' = c := by
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [rows_start0, rows_start1, rows_window0, rows_window1] at h0 h1 hb0
      have h0' : ((idx (ix2 e (0 : Fin 1))).toInt + ((0 : Nat) : Int)).toNat = n.val := h0
      have h1' : ((0 : Int) + (c'.val : Int)).toNat = c.val := h1
      refine ⟨by omega, Fin.ext (by omega)⟩
    · exact absurd h (by simp)
  · rintro ⟨hi, rfl⟩
    have hb : ∀ a, 0 ≤ (rowDims wf).start (ix2 e c') idx a + (rowDims wf).window (ix2 e c') a ∧
        (rowDims wf).start (ix2 e c') idx a + (rowDims wf).window (ix2 e c') a
          < (⟨2, ![N, C]⟩ : Shape).size a := by
      intro a
      match a with
      | ⟨0, _⟩ =>
        show 0 ≤ (rowDims wf).start (ix2 e c') idx 0 + (rowDims wf).window (ix2 e c') 0 ∧
          (rowDims wf).start (ix2 e c') idx 0 + (rowDims wf).window (ix2 e c') 0 < (N : Int)
        rw [rows_start0, rows_window0]
        have := n.isLt
        omega
      | ⟨1, _⟩ =>
        show 0 ≤ (rowDims wf).start (ix2 e c') idx 1 + (rowDims wf).window (ix2 e c') 1 ∧
          (rowDims wf).start (ix2 e c') idx 1 + (rowDims wf).window (ix2 e c') 1 < (C : Int)
        rw [rows_start1, rows_window1]
        have := c'.isLt
        omega
    rw [dif_pos hb]
    congr 1
    funext a
    refine Fin.ext ?_
    match a with
    | ⟨0, _⟩ =>
      show ((rowDims wf).start (ix2 e c') idx 0 + (rowDims wf).window (ix2 e c') 0).toNat = n.val
      rw [rows_start0, rows_window0]
      omega
    | ⟨1, _⟩ =>
      show ((rowDims wf).start (ix2 e c') idx 1 + (rowDims wf).window (ix2 e c') 1).toNat = c'.val
      rw [rows_start1, rows_window1]
      omega

/-- The row scatter-add at the literal dimension numbers, read at entry (n, c). -/
theorem rows_hostScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e (0 : Fin 1))).toInt = (n.val : Int)
  · simp [hA]
  · simp [hA]

end Rows

/-- A row scatter-add (the lowering of a segment sum): operand N×C, one scalar row index per update row (indices E×1),
    updates E×C, window axis 1, inserted axis 0. At the exact instance, entry (n, c) of the result is the operand's
    entry plus the sum, over the update rows e whose index (read signed) is n, of the update's entry (e, c). -/
theorem hostScatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e : Fin E, if (idx (ix2 e (0 : Fin 1))).toInt = (n.val : Int) then upd (ix2 e c) else 0 := by
  obtain ⟨uw, iw, sd, iv, wf⟩ := d
  simp only at hu hi hs hv
  subst hu hi hs hv
  exact rows_hostScatterAdd_apply wf x idx upd n c

/-- The same, for the scatter as a host program states it. -/
theorem scatterAdd_rows_apply {N E C w : Nat}
    (d : ScatterDims (⟨2, ![N, C]⟩ : Shape) ⟨2, ![E, 1]⟩ ⟨2, ![E, C]⟩)
    (hu : d.updateWindowDims = [1]) (hi : d.insertedWindowDims = [0])
    (hs : d.scatterDimsToOperandDims = [0]) (hv : d.indexVectorDim = 1)
    (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd d x idx upd (ix2 n c)
      = x (ix2 n c) + ∑ e : Fin E, if (idx (ix2 e (0 : Fin 1))).toInt = (n.val : Int) then upd (ix2 e c) else 0 :=
  hostScatterAdd_rows_apply d hu hi hs hv x idx upd n c

end Cert.LibScatter

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.KTerm.lean ====
/-
  The node form of the layer, read at an entry.

  One program scales the node table first: it leaves hn(p, q) = (x · W)(p, q) · dinv(p), with dinv held as an N × 1
  column. The rows of hn are gathered at the edges' clamped sources (a change of float format in between is the
  identity on the extended reals) and added up by raw target with a scatter-add into zeros; the sum's entry (n, q) is
  then multiplied by dinv(n) and the bias, held as a 1 × 128 row, is added at (0, q). Read at (n, q) this is the node
  form of the specification: the casts of a vector to a column or to a row keep the row-major position, so they read
  the vector's own entries.
-/
import Idealize.ShloMosaic.PureOps.Ideal.Laws
import proofs.«121808_j34591666602118_2_alg».proof.Proof.Spec
import proofs.«121808_j34591666602118_2_alg».proof.Proof.LibScatter
import proofs.«121808_j34591666602118_2_alg».proof.Proof.LibGather
import proofs.«121808_j34591666602118_2_alg».proof.Proof.LibColumn
import proofs.«121808_j34591666602118_2_alg».proof.Proof.LibBcast

noncomputable section

namespace Cert.KTerm

open Idealize.ShloMosaic Idealize.ShloMosaic.ValueIdx

/-- A vector of length `b` cast to a `1 × b` row reads, at `(u, j)`, the vector at `j`: the same row-major position. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

/-- The node-form term over arbitrary id columns, dinv vector, operands and records with the layer's dimension
    numbers, read at (n, q): the node form of the specification. -/
theorem node_term_apply
    (d2 : ScatterDims Cert.Spec.SX Cert.Spec.SEc ⟨2, ![1700000, 128]⟩) (hu : d2.updateWindowDims = [1])
    (hi : d2.insertedWindowDims = [0]) (hs : d2.scatterDimsToOperandDims = [0]) (hv : d2.indexVectorDim = 1)
    (dG : GatherDims Cert.Spec.SX Cert.Spec.SEc ⟨2, ![1700000, 128]⟩) (G1 : dG.offsetDims = [1])
    (G2 : dG.collapsedSliceDims = [0]) (G3 : dG.operandBatchingDims = []) (G4 : dG.startIndicesBatchingDims = [])
    (G5 : dG.startIndexMap = [0]) (G6 : dG.indexVectorDim = 1) (G7 : dG.sliceSizes = ![1, 128])
    (iD iS : IVec Cert.Spec.SEc 32) (dv : FVec Ideal Cert.Spec.SN .f32) (x : FVec Ideal Cert.Spec.SX .f32)
    (w : FVec Ideal Cert.Spec.SW .f32) (b : FVec Ideal Cert.Spec.SB .f32)
    (hsc : Cert.Spec.SN.ShapeCasts ⟨2, ![100000, 1]⟩) (hsb : Cert.Spec.SB.ShapeCasts ⟨2, ![1, 128]⟩)
    (h0 : Cert.Spec.S0.BroadcastsInDim Cert.Spec.SX (![] : Fin 0 → Fin 2)) (hlt : FTy.bits .bf16 < FTy.bits .f32)
    (hn : FVec Ideal Cert.Spec.SX .bf16)
    (hhn : ∀ (p : Fin 100000) (q : Fin 128),
      hn (ix2 p q) = Cert.Spec.hmat x w p q * shapeCast ⟨2, ![100000, 1]⟩ dv hsc (ix2 p (0 : Fin 1)))
    (n : Fin 100000) (q : Fin 128) :
    (Host.scatterAdd d2 (broadcastInDim Cert.Spec.SX ![] h0 (constant (F := Ideal) Cert.Spec.S0 .f32 0x00000000#32)) iD
        (extf .f32 (Host.gather dG hn iS) hlt) : Cert.Spec.SX.Idx → EReal) (ix2 n q)
      * shapeCast ⟨2, ![100000, 1]⟩ dv hsc (ix2 n (0 : Fin 1))
      + shapeCast ⟨2, ![1, 128]⟩ b hsb (ix2 (0 : Fin 1) q)
    = Cert.Spec.nodeForm (Cert.Spec.sdOf iD) (Cert.Spec.rowOf iS) (Cert.Spec.hmat x w) (Cert.Spec.dinvAt dv)
        (Cert.Spec.bvec b) n q := by
  unfold Cert.Spec.nodeForm Cert.Spec.bvec Cert.Spec.sdOf Cert.Spec.dinvAt
  rw [LibScatter.scatterAdd_rows_apply d2 hu hi hs hv, LibBcast.scalar_apply, constant_apply, Ideal.ofBits_zero_f32,
    LibColumn.shapeCast_a_a1_apply, shapeCast_b_1b_apply]
  refine congrArg (· + b (ix1 q)) (congrArg (· * dv (ix1 n)) (congrArg (0 + ·) (Finset.sum_congr rfl fun e _ => ?_)))
  by_cases he : (iD (ix2 e (0 : Fin 1))).toInt = (n.val : ℤ)
  · rw [if_pos he, if_pos he, extf_apply, LibGather.gather_rows_apply (by norm_num) dG G1 G2 G3 G4 G5 G6 G7, hhn,
      LibColumn.shapeCast_a_a1_apply]
    rfl
  · rw [if_neg he, if_neg he]

end Cert.KTerm

end
-- ==== Proof.KOut.lean ====
/-
  The kernel program's result, entry by entry, in the specification's node form.

  The result buffer ends at region 1's output array. Region 1 multiplies its first input, entry by entry, by the dinv column
  and adds the bias row; its first input is the scatter-add, at the raw targets and from zeros, of the rows of region 0's
  output gathered at the wrapped sources; and region 0's output at (p, q) is (x · W)(p, q) scaled by dinv(p). Chaining the
  two regions' closed forms through the host stretches gives, at entry (n, q),

      ( Σ over the edges e with target n of (x · W)(src e, q) · dinv(src e) ) · dinv(n) + b(q).
-/
import proofs.«121808_j34591666602118_2_alg».proof.Proof.KFold
import proofs.«121808_j34591666602118_2_alg».proof.Proof.Regions
import proofs.«121808_j34591666602118_2_alg».proof.Proof.KTerm

set_option maxRecDepth 16384

noncomputable section

namespace Cert.KernelIdeal.KOut

open Idealize.ShloMosaic Idealize.ShloMosaic.TcCoe Idealize.SL.Sem Idealize.ShloMosaic.StableHlo Idealize.ShloMosaic.ValueIdx
open Cert.KernelIdeal Cert.KernelIdeal.Gen Cert.KernelIdeal.KFold

variable (m : (ℓ : Loc nD τ sig) → Buf (Elt Ideal) ℓ) (ρ : Dev nD → PrngReg) (c : Dev nD)

/-- Region 0's output array once all of its points have written back: (x · W)(p, q) · dinv(p). -/
theorem W4_v17_apply (p : Fin 100000) (q : Fin 128) :
    (W4 m ρ c (Proc.devRef .tc main_v17) : FVec Ideal Cert.Spec.SX .bf16) (ix2 p q)
      = Cert.Spec.hmat (m ((c.tc : Thread nD τ).loc main_arg0)) (m ((c.tc : Thread nD τ).loc main_arg2)) p q
          * shapeCast ⟨2, ![100000, 1]⟩ (dinvK (m ((c.tc : Thread nD τ).loc main_arg1))) shapeCasts_S100000_S100000x1
              (ix2 p (0 : Fin 1)) := by
  rw [show W4 m ρ c (Proc.devRef .tc main_v17) = (dat0 (V3 m ρ) c).arrAt 3 cfg0.N from W4_arr m ρ c 3]
  rw [Cert.KernelIdeal.KValue.final0_apply (V3 m ρ) c p q]
  rw [show V3 m ρ c main_arg0 = _ from W3_arg0 m ρ c, show V3 m ρ c main_arg2 = _ from W3_arg2 m ρ c,
    show V3 m ρ c main_v16 = _ from W3_v16 m ρ c]
  rfl

/-- The result buffer at entry (n, q), in node form. -/
theorem kernel_apply (n : Fin 100000) (q : Fin 128) :
    (W6 m ρ c (Proc.devRef .tc main_v30) : FVec Ideal Cert.Spec.SX .f32) (ix2 n q)
      = Cert.Spec.nodeForm (Cert.Spec.sdOf (dstCol (m ((c.tc : Thread nD τ).loc main_arg1))))
          (Cert.Spec.rowOf (srcColW (m ((c.tc : Thread nD τ).loc main_arg1))))
          (Cert.Spec.hmat (m ((c.tc : Thread nD τ).loc main_arg0)) (m ((c.tc : Thread nD τ).loc main_arg2)))
          (Cert.Spec.dinvAt (dinvK (m ((c.tc : Thread nD τ).loc main_arg1))))
          (Cert.Spec.bvec (m ((c.tc : Thread nD τ).loc main_arg3))) n q := by
  rw [show W6 m ρ c (Proc.devRef .tc main_v30) = (dat1 (V5 m ρ) c).arrAt 3 cfg1.N from W6_arr m ρ c 3]
  rw [Cert.KernelIdeal.KValue.final1_apply (V5 m ρ) c n q, V5_v28 m ρ c, V5_v16 m ρ c, V5_v29 m ρ c]
  exact Cert.KTerm.node_term_apply scatter_S100000x128_S1700000x1_S1700000x128_1_0_0_1 rfl rfl rfl rfl
    gather_S100000x128_S1700000x1_S1700000x128_1_0_n_n_0_1_1128 rfl rfl rfl rfl rfl rfl rfl
    (dstCol (m ((c.tc : Thread nD τ).loc main_arg1))) (srcColW (m ((c.tc : Thread nD τ).loc main_arg1)))
    (dinvK (m ((c.tc : Thread nD τ).loc main_arg1)))
    (m ((c.tc : Thread nD τ).loc main_arg0)) (m ((c.tc : Thread nD τ).loc main_arg2)) (m ((c.tc : Thread nD τ).loc main_arg3))
    shapeCasts_S100000_S100000x1 shapeCasts_S128_S1x128 bcast_S_S100000x128 bitsLt_bf16_f32
    (W4 m ρ c (Proc.devRef .tc main_v17)) (W4_v17_apply m ρ c) n q

end Cert.KernelIdeal.KOut

end
-- ==== Proof.RefValue.lean ====
/-
  The reference program's result, read at an entry.

  The reference computes one graph-convolution layer in the "edge form": it multiplies x by W, gathers the product's
  rows at the edges' sources, scales row e by dinv(src e) · dinv(tgt e), adds the scaled rows up by target with a
  scatter-add into zeros, and adds the bias. Read at entry (n, q) this is, operation by operation from the outside in:
  the sum of the two addends' entries; the scatter-add's entry, 0 plus the sum over the edges whose raw target id is n
  of the update's entry (e, q); the update's entry, the product of the gathered row's entry and the broadcast scale;
  the gathered row's entry, the product x · W at the clamped source row; the scale, the two entry gathers of dinv at
  the clamped source and target; and the bias row broadcast down the rows.
-/
import proofs.«121808_j34591666602118_2_alg».proof.Proof.Spec
import proofs.«121808_j34591666602118_2_alg».proof.Proof.RefRun
import proofs.«121808_j34591666602118_2_alg».proof.Proof.LibScatter
import proofs.«121808_j34591666602118_2_alg».proof.Proof.LibGather
import proofs.«121808_j34591666602118_2_alg».proof.Proof.LibDot
import proofs.«121808_j34591666602118_2_alg».proof.Proof.LibBcast

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The edge-form term over arbitrary id columns, dinv vector, operands and records with the layer's dimension
    numbers, read at (n, q): the edge form of the specification. -/
theorem edge_term_apply
    (d2 : ScatterDims Cert.Spec.SX Cert.Spec.SEc (⟨2, ![1700000, 128]⟩ : Shape))
    (hu : d2.updateWindowDims = [1]) (hi : d2.insertedWindowDims = [0])
    (hs : d2.scatterDimsToOperandDims = [0]) (hv : d2.indexVectorDim = 1)
    (dG : GatherDims Cert.Spec.SX Cert.Spec.SEc (⟨2, ![1700000, 128]⟩ : Shape))
    (G1 : dG.offsetDims = [1]) (G2 : dG.collapsedSliceDims = [0]) (G3 : dG.operandBatchingDims = [])
    (G4 : dG.startIndicesBatchingDims = []) (G5 : dG.startIndexMap = [0]) (G6 : dG.indexVectorDim = 1)
    (G7 : dG.sliceSizes = ![1, 128])
    (dg : GatherDims Cert.Spec.SN Cert.Spec.SEc Cert.Spec.SE)
    (g1 : dg.offsetDims = []) (g2 : dg.collapsedSliceDims = [0]) (g3 : dg.operandBatchingDims = [])
    (g4 : dg.startIndicesBatchingDims = []) (g5 : dg.startIndexMap = [0]) (g6 : dg.indexVectorDim = 1)
    (g7 : dg.sliceSizes = ![1])
    (dd : DotDims Cert.Spec.SX Cert.Spec.SW Cert.Spec.SX)
    (hlc : dd.lhsContracting = [1]) (hrc : dd.rhsContracting = [0]) (hln : dd.lhsNonContracting = [0])
    (hrn : dd.rhsNonContracting = [1]) (hlb : dd.lhsBatch = []) (hrb : dd.rhsBatch = [])
    (iD iS iD' : IVec Cert.Spec.SEc 32) (dv : FVec Ideal Cert.Spec.SN .f32)
    (x : FVec Ideal Cert.Spec.SX .f32) (w : FVec Ideal Cert.Spec.SW .f32) (b : FVec Ideal Cert.Spec.SB .f32)
    (h0 : Cert.Spec.S0.BroadcastsInDim Cert.Spec.SX (![] : Fin 0 → Fin 2))
    (h1 : Cert.Spec.SE.BroadcastsInDim Cert.Spec.SEc (![0] : Fin 1 → Fin 2))
    (h2 : Cert.Spec.SEc.BroadcastsInDim (⟨2, ![1700000, 128]⟩ : Shape) (![0, 1] : Fin 2 → Fin 2))
    (h3 : Cert.Spec.SB.BroadcastsInDim (⟨2, ![1, 128]⟩ : Shape) (![1] : Fin 1 → Fin 2))
    (h4 : (⟨2, ![1, 128]⟩ : Shape).BroadcastsInDim Cert.Spec.SX (![0, 1] : Fin 2 → Fin 2))
    (n : Fin 100000) (q : Fin 128) :
    (addf
      (Host.scatterAdd d2 (broadcastInDim Cert.Spec.SX ![] h0 (constant (F := Ideal) Cert.Spec.S0 .f32 0x00000000#32)) iD
        (mulf (Host.gather dG (Host.dotGeneral dd none x w) iS)
          (broadcastInDim (⟨2, ![1700000, 128]⟩ : Shape) ![0, 1] h2
            (broadcastInDim Cert.Spec.SEc ![0] h1 (mulf (Host.gather dg dv iS) (Host.gather dg dv iD'))))))
      (broadcastInDim Cert.Spec.SX ![0, 1] h4 (broadcastInDim (⟨2, ![1, 128]⟩ : Shape) ![1] h3 b))
        : Cert.Spec.SX.Idx → EReal) (ix2 n q)
      = Cert.Spec.edgeForm (Cert.Spec.sdOf iD) (Cert.Spec.rowOf iS) (Cert.Spec.rowOf iD') (Cert.Spec.hmat x w)
          (Cert.Spec.dinvAt dv) (Cert.Spec.bvec b) n q := by
  unfold Cert.Spec.edgeForm
  rw [addf_apply, LibBcast.cols_apply, LibScatter.scatterAdd_rows_apply d2 hu hi hs hv, LibBcast.scalar_apply,
    constant_apply, Ideal.ofBits_zero_f32]
  unfold Cert.Spec.bvec Cert.Spec.sdOf
  refine congrArg (· + b (ix1 q)) (congrArg (0 + ·) (Finset.sum_congr rfl fun e _ => ?_))
  by_cases he : (iD (ix2 e (0 : Fin 1))).toInt = (n.val : ℤ)
  · rw [if_pos he, if_pos he, mulf_apply, LibGather.gather_rows_apply (by norm_num) dG G1 G2 G3 G4 G5 G6 G7,
      LibBcast.rows_apply, mulf_apply, LibGather.gather_vec_apply (by norm_num) dg g1 g2 g3 g4 g5 g6 g7,
      LibGather.gather_vec_apply (by norm_num) dg g1 g2 g3 g4 g5 g6 g7]
    simp only [Host.dotGeneral]
    rw [LibDot.dotGeneral_plain_apply dd hlc hrc hln hrn hlb hrb]
    rfl
  · rw [if_neg he, if_neg he]

set_option maxRecDepth 8192 in
/-- The reference's result at entry (n, q) is the edge form of the specification, at the reference's own id columns
    (raw targets for the scatter; wrapped sources and targets for the gathers), its product x · W, its dinv vector
    and its bias. -/
theorem ref_apply (m : (ℓ : Loc nD τ sig) → Buf (Elt Ideal) ℓ) (c : Dev nD) (n : Fin 100000) (q : Fin 128) :
    (ValueP.res_main_v46 (F := Ideal) m c : S100000x128.Idx → EReal) (ix2 n q)
      = Cert.Spec.edgeForm
          (Cert.Spec.sdOf (Cert.Spec.col (Cert.Spec.ids 1 (m ((c.tc : Thread nD τ).loc main_arg1)) slices_S2x1600000_S1x1600000_1_0 shapeCasts_S1x1600000_S1600000 concatenates_S1600000_S100000_S1700000_d0) bcast_S1700000_S1700000x1_0))
          (Cert.Spec.rowOf (Cert.Spec.col (Cert.Spec.wrap (Cert.Spec.ids 0 (m ((c.tc : Thread nD τ).loc main_arg1)) slices_S2x1600000_S1x1600000_0_0 shapeCasts_S1x1600000_S1600000 concatenates_S1600000_S100000_S1700000_d0) bcast_S_S1700000) bcast_S1700000_S1700000x1_0))
          (Cert.Spec.rowOf (Cert.Spec.col (Cert.Spec.wrap (Cert.Spec.ids 1 (m ((c.tc : Thread nD τ).loc main_arg1)) slices_S2x1600000_S1x1600000_1_0 shapeCasts_S1x1600000_S1600000 concatenates_S1600000_S100000_S1700000_d0) bcast_S_S1700000) bcast_S1700000_S1700000x1_0))
          (Cert.Spec.hmat (m ((c.tc : Thread nD τ).loc main_arg0)) (m ((c.tc : Thread nD τ).loc main_arg2)))
          (Cert.Spec.dinvAt (Cert.Spec.dinvVec (Cert.Spec.degFloat scatter_S100000_S1700000x1_S1700000_n_0_0_1 (Cert.Spec.col (Cert.Spec.ids 1 (m ((c.tc : Thread nD τ).loc main_arg1)) slices_S2x1600000_S1x1600000_1_0 shapeCasts_S1x1600000_S1600000 concatenates_S1600000_S100000_S1700000_d0) bcast_S1700000_S1700000x1_0) bcast_S_S100000 bcast_S_S1700000) bcast_S_S100000))
          (Cert.Spec.bvec (m ((c.tc : Thread nD τ).loc main_arg3))) n q := by
  unfold ValueP.res_main_v46
  exact edge_term_apply
    scatter_S100000x128_S1700000x1_S1700000x128_1_0_0_1 rfl rfl rfl rfl
    gather_S100000x128_S1700000x1_S1700000x128_1_0_n_n_0_1_1128 rfl rfl rfl rfl rfl rfl rfl
    gather_S100000_S1700000x1_S1700000_n_0_n_n_0_1_1 rfl rfl rfl rfl rfl rfl rfl
    dot_S100000x128_S128x128_S100000x128_1_0_0_1_n_n rfl rfl rfl rfl rfl rfl
    (Cert.Spec.col (Cert.Spec.ids 1 (m ((c.tc : Thread nD τ).loc main_arg1)) slices_S2x1600000_S1x1600000_1_0 shapeCasts_S1x1600000_S1600000 concatenates_S1600000_S100000_S1700000_d0) bcast_S1700000_S1700000x1_0)
    (Cert.Spec.col (Cert.Spec.wrap (Cert.Spec.ids 0 (m ((c.tc : Thread nD τ).loc main_arg1)) slices_S2x1600000_S1x1600000_0_0 shapeCasts_S1x1600000_S1600000 concatenates_S1600000_S100000_S1700000_d0) bcast_S_S1700000) bcast_S1700000_S1700000x1_0)
    (Cert.Spec.col (Cert.Spec.wrap (Cert.Spec.ids 1 (m ((c.tc : Thread nD τ).loc main_arg1)) slices_S2x1600000_S1x1600000_1_0 shapeCasts_S1x1600000_S1600000 concatenates_S1600000_S100000_S1700000_d0) bcast_S_S1700000) bcast_S1700000_S1700000x1_0)
    (Cert.Spec.dinvVec (Cert.Spec.degFloat scatter_S100000_S1700000x1_S1700000_n_0_0_1 (Cert.Spec.col (Cert.Spec.ids 1 (m ((c.tc : Thread nD τ).loc main_arg1)) slices_S2x1600000_S1x1600000_1_0 shapeCasts_S1x1600000_S1600000 concatenates_S1600000_S100000_S1700000_d0) bcast_S1700000_S1700000x1_0) bcast_S_S100000 bcast_S_S1700000) bcast_S_S100000)
    (m ((c.tc : Thread nD τ).loc main_arg0)) (m ((c.tc : Thread nD τ).loc main_arg2)) (m ((c.tc : Thread nD τ).loc main_arg3))
    bcast_S_S100000x128 bcast_S1700000_S1700000x1_0 bcast_S1700000x1_S1700000x128_0_1 bcast_S128_S1x128_1
    bcast_S1x128_S100000x128_0_1 n q

end Cert.ReferenceIdeal.RefValue

end
-- ==== Proof.LibCount.lean ====
/-
  Counting with a scatter: the in-degree of a node, in integers and in extended reals.

  A rank-1 scatter with one scalar index per update: an operand of length N, E scalar updates, and an E × 1 index
  array; update e goes to operand position idx(e), read signed, and an index outside [0, N) lands nowhere. With an
  additive body the result at n is the operand at n plus the sum of the updates e whose index is n — as an exact sum of
  extended reals for the accumulating float scatter, and as a sum of 32-bit words for the integer scatter, which is a
  left fold over the updates. Scattering ones into zeros therefore counts, for each n, the updates whose index is n;
  with fewer than 2^31 updates the 32-bit count does not wrap, so converted to an extended real it is the real count.
  A count is a natural number, so the reciprocal square root of a positive count, or 0 for a zero count, is a
  non-negative real. Everything holds for every extent N, E.
-/
import Idealize.ShloMosaic.PureOps.Ideal
import Idealize.ShloMosaic.Lib.ValueIdx
import Idealize.ShloMosaic.Lib.WordArith

noncomputable section

namespace Cert.LibCount

open Idealize.ShloMosaic Idealize.ShloMosaic.ValueIdx

section Vec

variable {N E w : Nat}
  (wf : ScatterDims.WF (⟨1, ![N]⟩ : Shape) ⟨2, ![E, 1]⟩ ⟨1, ![E]⟩ [] [0] [0] 1)

/-- The scalar scatter's dimension numbers: the updates have no window axis, the operand's one axis is inserted, the
    one index component goes to operand axis 0, and the index vector lies along axis 1 of the indices. -/
abbrev vecDims : ScatterDims (⟨1, ![N]⟩ : Shape) ⟨2, ![E, 1]⟩ ⟨1, ![E]⟩ := ⟨[], [0], [0], 1, wf⟩

/-- The window of update e starts at e's index, read signed: the one index component goes to axis 0 and is read at
    (e, 0) of the indices. -/
theorem vec_start0 (idx : IVec ⟨2, ![E, 1]⟩ w) (e : Fin E) :
    (vecDims wf).start (ix1 e) idx 0 = (idx (ix2 e (0 : Fin 1))).toInt := by
  unfold ScatterDims.start
  rw [dif_pos (show (0 : Fin 1) ∈ (vecDims wf).scatterDimsToOperandDims from List.mem_singleton.mpr rfl)]
  have hsi : (vecDims wf).siIdx (ix1 e) ⟨List.idxOf (0 : Fin 1) (vecDims wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted, so the window coordinate on it is 0. -/
theorem vec_window0 (j : (⟨1, ![E]⟩ : Shape).Idx) : (vecDims wf).window j 0 = 0 := by
  unfold ScatterDims.window
  have h : (0 : Fin 1) ∉ (vecDims wf).sKept :=
    (by decide : (0 : Fin 1) ∉ (List.finRange 1).filter (· ∉ ([0] : List (Fin 1))))
  rw [dif_neg h]

/-- Update e lands on operand position n exactly when e's index, read signed, is n: the result coordinate is the
    index itself (window coordinate 0), and an index outside [0, N) lands nowhere. -/
theorem vecDims_resultIdx?_eq_some_iff (idx : IVec ⟨2, ![E, 1]⟩ w) (e : Fin E) (n : Fin N) :
    (vecDims wf).resultIdx? (ix1 e) idx = some (ix1 n) ↔ (idx (ix2 e (0 : Fin 1))).toInt = (n.val : Int) := by
  unfold ScatterDims.resultIdx?
  constructor
  · intro h
    split at h
    · rename_i hb
      have hf := Option.some.inj h
      have h0 := congrArg Fin.val (congrFun hf 0)
      simp only [vec_start0, vec_window0] at h0
      have hb0 := (hb 0).1
      simp only [vec_start0, vec_window0] at hb0
      have h0' : ((idx (ix2 e (0 : Fin 1))).toInt + ((0 : Nat) : Int)).toNat = n.val := h0
      omega
    · exact absurd h (by simp)
  · intro hi
    have hb : ∀ a, 0 ≤ (vecDims wf).start (ix1 e) idx a + (vecDims wf).window (ix1 e) a ∧
        (vecDims wf).start (ix1 e) idx a + (vecDims wf).window (ix1 e) a
          < (⟨1, ![N]⟩ : Shape).size a := by
      intro a
      match a with
      | ⟨0, _⟩ =>
        show 0 ≤ (vecDims wf).start (ix1 e) idx 0 + (vecDims wf).window (ix1 e) 0 ∧
          (vecDims wf).start (ix1 e) idx 0 + (vecDims wf).window (ix1 e) 0 < (N : Int)
        rw [vec_start0, vec_window0]
        have := n.isLt
        omega
    rw [dif_pos hb]
    congr 1
    funext a
    refine Fin.ext ?_
    match a with
    | ⟨0, _⟩ =>
      show ((vecDims wf).start (ix1 e) idx 0 + (vecDims wf).window (ix1 e) 0).toNat = n.val
      rw [vec_start0, vec_window0]
      omega

end Vec

variable {N E w : Nat}

/-- A scalar scatter (operand of length N, indices E × 1, E scalar updates, no window axis, the operand's axis
    inserted): update e lands on operand position n exactly when its index, read signed, is n. -/
theorem vec_resultIdx?_eq_some_iff (d : ScatterDims (⟨1, ![N]⟩ : Shape) ⟨2, ![E, 1]⟩ ⟨1, ![E]⟩)
    (hu : d.updateWindowDims = []) (hi : d.insertedWindowDims = [0])
    (hs : d.scatterDimsToOperandDims = [0]) (hv : d.indexVectorDim = 1)
    (idx : IVec ⟨2, ![E, 1]⟩ w) (e : Fin E) (n : Fin N) :
    d.resultIdx? (ix1 e) idx = some (ix1 n) ↔ (idx (ix2 e (0 : Fin 1))).toInt = (n.val : Int) := by
  obtain ⟨uw, iw, sd, iv, wf⟩ := d
  simp only at hu hi hs hv
  subst hu hi hs hv
  exact vecDims_resultIdx?_eq_some_iff wf idx e n

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating float scatter of scalars, on the extended reals, read at position n: the operand at n plus the
    sum of the updates whose index, read signed, is n. -/
theorem scatterAdd_vec_apply (d : ScatterDims (⟨1, ![N]⟩ : Shape) ⟨2, ![E, 1]⟩ ⟨1, ![E]⟩)
    (hu : d.updateWindowDims = []) (hi : d.insertedWindowDims = [0])
    (hs : d.scatterDimsToOperandDims = [0]) (hv : d.indexVectorDim = 1)
    (x : FVec Ideal (⟨1, ![N]⟩ : Shape) .f32) (idx : IVec ⟨2, ![E, 1]⟩ w)
    (upd : FVec Ideal (⟨1, ![E]⟩ : Shape) .f32) (n : Fin N) :
    Host.scatterAdd d x idx upd (ix1 n)
      = x (ix1 n) + ∑ e : Fin E, if (idx (ix2 e (0 : Fin 1))).toInt = (n.val : Int) then upd (ix1 e) else 0 := by
  show Ideal.hostScatterAdd d x idx upd (ix1 n) = _
  unfold Ideal.hostScatterAdd
  congr 1
  rw [Finset.sum_filter, sum_idx1]
  refine Finset.sum_congr rfl fun e _ => ?_
  simp only [vec_resultIdx?_eq_some_iff d hu hi hs hv]

/-- A scatter's left fold with an additive body, over any list of update positions and in any commutative additive
    monoid, read at an operand index i: the start value at i plus the sum, along the list, of the updates that land
    on i. Each step changes the value at i only when its update lands on i, and then adds that update. -/
theorem scatter_fold_apply {α : Type} [AddCommMonoid α] {s si u : Shape} [DecidableEq s.Idx] {w : Nat}
    (d : ScatterDims s si u)
    (f : α → α → α) (hf : ∀ a b, f a b = a + b) (idx : IVec si w) (upd : u.Idx → α)
    (l : List (Fin u.numel)) (x : s.Idx → α) (i : s.Idx) :
    l.foldl (fun r n =>
        match d.resultIdx? (u.rowMajor.symm n) idx with
        | some i => fun i' => if i' = i then f (r i) (upd (u.rowMajor.symm n)) else r i'
        | none => r) x i
      = x i + (l.map fun n =>
          if d.resultIdx? (u.rowMajor.symm n) idx = some i then upd (u.rowMajor.symm n) else 0).sum := by
  induction l generalizing x with
  | nil => simp
  | cons a l ih =>
    rw [List.foldl_cons, ih, List.map_cons, List.sum_cons, ← add_assoc]
    congr 1
    cases hg : d.resultIdx? (u.rowMajor.symm a) idx with
    | none => simp
    | some i0 =>
      by_cases h : i = i0
      · subst h; simp [hf]
      · have h' : ¬ i0 = i := fun e => h e.symm
        simp [h, h']

/-- A scatter with an additive body, in any commutative additive monoid, read at an operand index i: the operand at
    i plus the sum of the updates that land on i. -/
theorem scatter_add_apply {α : Type} [AddCommMonoid α] {s si u : Shape} {w : Nat} (d : ScatterDims s si u)
    (f : α → α → α) (hf : ∀ a b, f a b = a + b) (x : s.Idx → α) (idx : IVec si w) (upd : u.Idx → α) (i : s.Idx) :
    Host.scatter d f x idx upd i = x i + ∑ j : u.Idx, if d.resultIdx? j idx = some i then upd j else 0 := by
  unfold Host.scatter
  refine (scatter_fold_apply d f hf idx upd (List.finRange u.numel) x i).trans ?_
  rw [← Fin.sum_univ_def]
  congr 1
  exact Equiv.sum_comp u.rowMajor.symm (fun j => if d.resultIdx? j idx = some i then upd j else 0)

/-- The integer scatter of scalar words with an addition body, read at position n: the operand at n plus the sum, in
    32-bit words, of the updates whose index, read signed, is n. -/
theorem scatter_addi_vec_apply (d : ScatterDims (⟨1, ![N]⟩ : Shape) ⟨2, ![E, 1]⟩ ⟨1, ![E]⟩)
    (hu : d.updateWindowDims = []) (hi : d.insertedWindowDims = [0])
    (hs : d.scatterDimsToOperandDims = [0]) (hv : d.indexVectorDim = 1)
    (x : IVec (⟨1, ![N]⟩ : Shape) 32) (idx : IVec ⟨2, ![E, 1]⟩ w) (upd : IVec (⟨1, ![E]⟩ : Shape) 32) (n : Fin N) :
    Host.scatter d IntOp.addi x idx upd (ix1 n)
      = x (ix1 n) + ∑ e : Fin E, if (idx (ix2 e (0 : Fin 1))).toInt = (n.val : Int) then upd (ix1 e) else 0 := by
  rw [scatter_add_apply d IntOp.addi (fun _ _ => rfl), sum_idx1]
  congr 1
  refine Finset.sum_congr rfl fun e _ => ?_
  simp only [vec_resultIdx?_eq_some_iff d hu hi hs hv]

/-- The number of updates whose index, read signed, is n: position n's count. -/
def count (idx : IVec ⟨2, ![E, 1]⟩ w) (n : Fin N) : ℕ :=
  (Finset.univ.filter fun e : Fin E => (idx (ix2 e (0 : Fin 1))).toInt = (n.val : Int)).card

/-- A count is at most the number of updates. -/
theorem count_le (idx : IVec ⟨2, ![E, 1]⟩ w) (n : Fin N) : count idx n ≤ E := by
  unfold count
  exact (Finset.card_filter_le _ _).trans (by simp)

/-- Scattering the float 1 into float zeros with the accumulating scatter counts, on the extended reals: the result
    at n is the count of n. -/
theorem scatterAdd_ones_apply (d' : ScatterDims (⟨1, ![N]⟩ : Shape) ⟨2, ![E, 1]⟩ ⟨1, ![E]⟩)
    (hu' : d'.updateWindowDims = []) (hi' : d'.insertedWindowDims = [0])
    (hs' : d'.scatterDimsToOperandDims = [0]) (hv' : d'.indexVectorDim = 1)
    (idx : IVec ⟨2, ![E, 1]⟩ w)
    (xf : FVec Ideal (⟨1, ![N]⟩ : Shape) .f32) (uf : FVec Ideal (⟨1, ![E]⟩ : Shape) .f32)
    (hxf : ∀ i, xf i = 0) (huf : ∀ j, uf j = 1) (n : Fin N) :
    Host.scatterAdd d' xf idx uf (ix1 n) = ((count idx n : ℝ) : EReal) := by
  rw [scatterAdd_vec_apply d' hu' hi' hs' hv', hxf, zero_add]
  simp only [huf]
  rw [Finset.sum_boole, EReal.coe_natCast]
  rfl

/-- Scattering the word 1 into zero words with an addition body counts in 32-bit words: the result at n is the count
    of n as a word. -/
theorem scatter_addi_ones_apply (d : ScatterDims (⟨1, ![N]⟩ : Shape) ⟨2, ![E, 1]⟩ ⟨1, ![E]⟩)
    (hu : d.updateWindowDims = []) (hi : d.insertedWindowDims = [0])
    (hs : d.scatterDimsToOperandDims = [0]) (hv : d.indexVectorDim = 1)
    (idx : IVec ⟨2, ![E, 1]⟩ w)
    (x0 : IVec (⟨1, ![N]⟩ : Shape) 32) (u1 : IVec (⟨1, ![E]⟩ : Shape) 32)
    (hx0 : ∀ i, x0 i = 0#32) (hu1 : ∀ j, u1 j = 1#32) (n : Fin N) :
    Host.scatter d IntOp.addi x0 idx u1 (ix1 n) = BitVec.ofNat 32 (count idx n) := by
  rw [scatter_addi_vec_apply d hu hi hs hv, hx0]
  simp only [hu1]
  rw [show (0#32 : BitVec 32) = 0 from rfl, zero_add, show (1#32 : BitVec 32) = 1 from rfl, Finset.sum_boole,
    BitVec.natCast_eq_ofNat]
  rfl

/-- The in-degree counted in 32-bit integers and converted to a float is, on the extended reals, the in-degree counted
    in floats: both are the number of updates whose index is n, and with fewer than 2^31 updates the 32-bit count
    reads signed as itself. -/
theorem deg_eq (hE : E < 2 ^ 31)
    (d d' : ScatterDims (⟨1, ![N]⟩ : Shape) ⟨2, ![E, 1]⟩ ⟨1, ![E]⟩)
    (hu : d.updateWindowDims = []) (hi : d.insertedWindowDims = [0])
    (hs : d.scatterDimsToOperandDims = [0]) (hv : d.indexVectorDim = 1)
    (hu' : d'.updateWindowDims = []) (hi' : d'.insertedWindowDims = [0])
    (hs' : d'.scatterDimsToOperandDims = [0]) (hv' : d'.indexVectorDim = 1)
    (idx : IVec ⟨2, ![E, 1]⟩ w)
    (x0 : IVec (⟨1, ![N]⟩ : Shape) 32) (u1 : IVec (⟨1, ![E]⟩ : Shape) 32)
    (hx0 : ∀ i, x0 i = 0#32) (hu1 : ∀ j, u1 j = 1#32)
    (xf : FVec Ideal (⟨1, ![N]⟩ : Shape) .f32) (uf : FVec Ideal (⟨1, ![E]⟩ : Shape) .f32)
    (hxf : ∀ i, xf i = 0) (huf : ∀ j, uf j = 1) :
    sitofp (F := Ideal) .f32 (Host.scatter d IntOp.addi x0 idx u1) = Host.scatterAdd d' xf idx uf := by
  funext i
  obtain ⟨n, rfl⟩ : ∃ n : Fin N, i = ix1 n := ⟨i 0, eq_ix1 i⟩
  rw [scatterAdd_ones_apply d' hu' hi' hs' hv' idx xf uf hxf huf]
  show (((Host.scatter d IntOp.addi x0 idx u1 (ix1 n)).toInt : ℝ) : EReal) = _
  rw [scatter_addi_ones_apply d hu hi hs hv idx x0 u1 hx0 hu1,
    WordArith.toInt_ofNat_small _ (lt_of_le_of_lt (count_le idx n) hE), Int.cast_natCast]

/-- The in-degree counted in floats is, on the extended reals, a natural number. -/
theorem deg_nat (d' : ScatterDims (⟨1, ![N]⟩ : Shape) ⟨2, ![E, 1]⟩ ⟨1, ![E]⟩)
    (hu' : d'.updateWindowDims = []) (hi' : d'.insertedWindowDims = [0])
    (hs' : d'.scatterDimsToOperandDims = [0]) (hv' : d'.indexVectorDim = 1)
    (idx : IVec ⟨2, ![E, 1]⟩ w)
    (xf : FVec Ideal (⟨1, ![N]⟩ : Shape) .f32) (uf : FVec Ideal (⟨1, ![E]⟩ : Shape) .f32)
    (hxf : ∀ i, xf i = 0) (huf : ∀ j, uf j = 1) (n : Fin N) :
    ∃ k : ℕ, Host.scatterAdd d' xf idx uf (ix1 n) = ((k : ℝ) : EReal) :=
  ⟨count idx n, scatterAdd_ones_apply d' hu' hi' hs' hv' idx xf uf hxf huf n⟩

/-- The 32-bit float word 0x3F800000 is the extended real one: sign 0, exponent field 127 (the bias), fraction 0. -/
theorem ofBits_one_f32 : Ideal.ofBits .f32 0x3F800000#32 = (1 : EReal) := by
  rw [show (1 : EReal) = ((1 : ℝ) : EReal) by norm_cast]
  simp [Ideal.ofBits, Ideal.ieee, -EReal.coe_mul]
  norm_num

/-- The inverse square root of the degree where the degree is positive, and 0 elsewhere, is a non-negative real when
    the degree is a natural number: at degree 0 the select takes the zero, and at a positive degree k the reciprocal
    of the real square root of k is a non-negative real. -/
theorem dinv_nonneg_real (deg z1 z2 : FVec Ideal (⟨1, ![N]⟩ : Shape) .f32)
    (hz1 : ∀ i, z1 i = 0) (hz2 : ∀ i, z2 i = 0) (n : Fin N)
    (hdeg : ∃ k : ℕ, deg (ix1 n) = ((k : ℝ) : EReal)) :
    ∃ r : ℝ, 0 ≤ r ∧ select (cmpf (F := Ideal) .ogt deg z1) (Host.rsqrt deg) z2 (ix1 n) = (r : EReal) := by
  obtain ⟨k, hk⟩ := hdeg
  show ∃ r : ℝ, 0 ≤ r ∧ Scalar.select (Ideal.cmp .ogt (deg (ix1 n)) (z1 (ix1 n))) (Ideal.rsqrt (deg (ix1 n)))
    (z2 (ix1 n)) = (r : EReal)
  rw [hk, hz1, hz2]
  by_cases h0 : k = 0
  · subst h0
    refine ⟨0, le_refl _, ?_⟩
    simp [Ideal.cmp, Scalar.select]
  · have hpos : (0 : ℝ) < (k : ℝ) := by exact_mod_cast Nat.pos_of_ne_zero h0
    refine ⟨(Real.sqrt (k : ℝ))⁻¹, inv_nonneg.mpr (Real.sqrt_nonneg _), ?_⟩
    have hc : Ideal.cmp .ogt (((k : ℝ) : EReal)) 0 = 1#1 := by
      simp [Ideal.cmp, Nat.pos_of_ne_zero h0]
    rw [hc, Ideal.rsqrt_coe, if_neg (not_lt.mpr hpos.le), if_neg hpos.ne']
    rfl

end Cert.LibCount

end
-- ==== Proof.Bridge.lean ====
/-
  The two programs compute one array.

  Entry by entry the kernel's result is the specification's node form and the reference's its edge form, over the SAME id
  vectors, the same product x · W and the same bias once the arguments agree; what differs is the spelling of the degree —
  counted in 32-bit integers and converted by one program, counted in floats by the other. Both counts are the number of
  edges whose target id, read signed, is the node: at most 1 700 000 < 2^31 of them, so the integer count does not wrap.
  Hence dinv is one vector on both sides, each of its entries a non-negative real (the inverse square root of a positive
  count, or 0), and the node form equals the edge form.
-/
import proofs.«121808_j34591666602118_2_alg».proof.Proof.KOut
import proofs.«121808_j34591666602118_2_alg».proof.Proof.RefValue
import proofs.«121808_j34591666602118_2_alg».proof.Proof.LibCount

set_option maxRecDepth 16384

noncomputable section

namespace Cert.Bridge

open Idealize.ShloMosaic Idealize.ShloMosaic.TcCoe Idealize.SL.Sem Idealize.ShloMosaic.ValueIdx

/-- A scalar zero word broadcast to any shape reads 0 everywhere. -/
theorem bcast_zero (T : Shape) (h : Cert.Spec.S0.BroadcastsInDim T (![] : Fin 0 → Fin T.rank)) (i : T.Idx) :
    broadcastInDim T ![] h (constant (F := Ideal) Cert.Spec.S0 .f32 0x00000000#32) i = (0 : EReal) :=
  Ideal.ofBits_zero_f32

/-- The degree counted in integers and converted is the degree counted in floats: each is the number of edges whose target
    id is the node. -/
theorem deg_int_eq_float (iD : IVec Cert.Spec.SEc 32) :
    Cert.Spec.degInt Cert.KernelIdeal.scatter_S100000_S1700000x1_S1700000_n_0_0_1 iD
        Cert.KernelIdeal.Facts₀.bcast_S_S100000 Cert.KernelIdeal.Facts₀.bcast_S_S1700000
      = Cert.Spec.degFloat Cert.ReferenceIdeal.scatter_S100000_S1700000x1_S1700000_n_0_0_1 iD
        Cert.ReferenceIdeal.Facts₀.bcast_S_S100000 Cert.ReferenceIdeal.Facts₀.bcast_S_S1700000 := by
  unfold Cert.Spec.degInt Cert.Spec.degFloat
  exact Cert.LibCount.deg_eq (by norm_num) _ _ rfl rfl rfl rfl rfl rfl rfl rfl iD _ _ (fun _ => rfl) (fun _ => rfl) _ _
    (fun i => bcast_zero _ _ i) (fun _ => Cert.LibCount.ofBits_one_f32)

/-- dinv read at a node, for any degree vector: the select of the comparison, the inverse square root and zero. -/
theorem dinvAt_dinvVec (deg : FVec Ideal Cert.Spec.SN .f32)
    (hN : Cert.Spec.S0.BroadcastsInDim Cert.Spec.SN (![] : Fin 0 → Fin 1)) (n : Fin 100000) :
    Cert.Spec.dinvAt (Cert.Spec.dinvVec deg hN) n
      = select (cmpf (F := Ideal) .ogt deg (broadcastInDim Cert.Spec.SN ![] hN (constant (F := Ideal) Cert.Spec.S0 .f32 0x00000000#32)))
          (Host.rsqrt deg) (broadcastInDim Cert.Spec.SN ![] hN (id (constant (F := Ideal) Cert.Spec.S0 .f32 0x00000000#32))) (ix1 n) := rfl

/-- Where the degree at a node is a natural number, dinv there is a non-negative real: the inverse square root of a
    positive count, or 0. -/
theorem dinv_real_of (deg : FVec Ideal Cert.Spec.SN .f32)
    (hN : Cert.Spec.S0.BroadcastsInDim Cert.Spec.SN (![] : Fin 0 → Fin 1)) (n : Fin 100000)
    (hdeg : ∃ k : ℕ, deg (ix1 n) = ((k : ℝ) : EReal)) :
    ∃ r : ℝ, 0 ≤ r ∧ Cert.Spec.dinvAt (Cert.Spec.dinvVec deg hN) n = (r : EReal) := by
  rw [dinvAt_dinvVec]
  exact Cert.LibCount.dinv_nonneg_real (N := 100000) deg _ _ (fun i => bcast_zero Cert.Spec.SN hN i)
    (fun i => bcast_zero Cert.Spec.SN hN i) n hdeg

/-- The degree counted in floats is a natural number at every node. -/
theorem deg_float_nat (iD : IVec Cert.Spec.SEc 32)
    (hN : Cert.Spec.S0.BroadcastsInDim Cert.Spec.SN (![] : Fin 0 → Fin 1))
    (hE : Cert.Spec.S0.BroadcastsInDim Cert.Spec.SE (![] : Fin 0 → Fin 1)) (n : Fin 100000) :
    ∃ k : ℕ, Cert.Spec.degFloat Cert.ReferenceIdeal.scatter_S100000_S1700000x1_S1700000_n_0_0_1 iD hN hE (ix1 n)
      = ((k : ℝ) : EReal) :=
  Cert.LibCount.deg_nat (N := 100000) (E := 1700000)
      Cert.ReferenceIdeal.scatter_S100000_S1700000x1_S1700000_n_0_0_1 rfl rfl rfl rfl iD
      (broadcastInDim Cert.Spec.SN ![] hN (constant (F := Ideal) Cert.Spec.S0 .f32 0x00000000#32))
      (broadcastInDim Cert.Spec.SE ![] hE (constant (F := Ideal) Cert.Spec.S0 .f32 0x3F800000#32))
      (fun i => bcast_zero Cert.Spec.SN hN i) (fun _ => Cert.LibCount.ofBits_one_f32) n

/-- Every entry of dinv is a non-negative real. -/
theorem dinv_real (iD : IVec Cert.Spec.SEc 32)
    (hN hN' : Cert.Spec.S0.BroadcastsInDim Cert.Spec.SN (![] : Fin 0 → Fin 1))
    (hE : Cert.Spec.S0.BroadcastsInDim Cert.Spec.SE (![] : Fin 0 → Fin 1)) (n : Fin 100000) :
    ∃ r : ℝ, 0 ≤ r ∧ Cert.Spec.dinvAt (Cert.Spec.dinvVec (Cert.Spec.degFloat
        Cert.ReferenceIdeal.scatter_S100000_S1700000x1_S1700000_n_0_0_1 iD hN hE) hN') n = (r : EReal) :=
  dinv_real_of _ hN' n (deg_float_nat iD hN hE n)

/-- The edge form over one spelling of the ids and of dinv is the node form over another spelling of the same. -/
theorem forms_agree {N E C : ℕ} (sd sd' : Fin E → ℤ) (cs cs' cd : Fin E → Fin N) (h : Fin N → Fin C → EReal)
    (dinv dinv' : Fin N → EReal) (b : Fin C → EReal) (n : Fin N) (q : Fin C)
    (hsd : sd = sd') (hcs : cs = cs') (hdv : dinv = dinv')
    (hcd : ∀ (e : Fin E) (n : Fin N), sd e = (n.val : ℤ) → cd e = n)
    (hd : ∀ n : Fin N, ∃ r : ℝ, 0 ≤ r ∧ dinv n = (r : EReal)) :
    Cert.Spec.edgeForm sd cs cd h dinv b n q = Cert.Spec.nodeForm sd' cs' h dinv' b n q := by
  subst hsd hcs hdv
  exact (Cert.Spec.nodeForm_eq_edgeForm sd cs cd h dinv b hcd hd n q).symm

/-- The kernel's dinv vector is the one built on the float count. -/
theorem dinvK_eq (ei : IVec Cert.Spec.SEI 32) :
    Cert.KernelIdeal.KFold.dinvK ei
      = Cert.Spec.dinvVec (Cert.Spec.degFloat Cert.ReferenceIdeal.scatter_S100000_S1700000x1_S1700000_n_0_0_1
          (Cert.KernelIdeal.KFold.dstCol ei) Cert.ReferenceIdeal.Facts₀.bcast_S_S100000
          Cert.ReferenceIdeal.Facts₀.bcast_S_S1700000) Cert.KernelIdeal.Facts₀.bcast_S_S100000 :=
  congrArg (fun d => Cert.Spec.dinvVec d Cert.KernelIdeal.Facts₀.bcast_S_S100000)
    (deg_int_eq_float (Cert.KernelIdeal.KFold.dstCol ei))

/-- From memories that agree on the four arguments, the reference's result term is the array the kernel's run leaves in
    its result buffer. -/
theorem results_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)) :
    (Cert.ReferenceIdeal.ValueP.res_main_v46 (F := Ideal) m' c : FVec Ideal Cert.Spec.SX .f32)
      = Cert.KernelIdeal.Gen.W6 m ρ c (Proc.devRef .tc Cert.KernelIdeal.main_v30) := by
  funext i
  obtain ⟨n, q, rfl⟩ : ∃ (n : Fin 100000) (q : Fin 128), i = ix2 n q := ⟨i 0, i 1, eq_ix2 i⟩
  rw [Cert.ReferenceIdeal.RefValue.ref_apply m' c n q, Cert.KernelIdeal.KOut.kernel_apply m ρ c n q, h0, h1, h2, h3,
    dinvK_eq]
  exact forms_agree _ _ _ _ _ _ _ _ _ n q rfl rfl rfl
    (fun e n' h => Cert.Spec.rowOf_wrap_of_sdOf _ _ _ e n' h) (fun n' => dinv_real _ _ _ _ n')

end Cert.Bridge

end
-- ==== Proof.lean ====
/-
  One graph-convolution layer — self-loops, symmetric degree scaling, a linear map, gather and scatter-add over the edges,
  a bias — computed two ways, and the claim that the two ways agree on the extended reals.

  The kernel program counts the in-degree in 32-bit integers, takes dinv = 1/sqrt(deg) (0 where deg = 0), scales the node
  table h = x · W by dinv in a first pallas_call, gathers its rows at the sources and adds them up at the targets on the
  host, and in a second pallas_call multiplies row n of the sums by dinv(n) and adds the bias. The reference counts the
  degree in floats, scales each gathered row of h by dinv(src) · dinv(tgt), adds the rows up at the targets and adds the bias.
  At entry (n, q) both are  Σ over the edges e with target n of h(src e, q) · dinv(src e) · dinv(n)  +  b(q):
  the integer count cannot wrap (at most 1 700 000 edges), so the two degrees are one number; every edge in the sum for
  row n has target n; products of extended reals are associative; and dinv(n), a non-negative real, distributes over the sum.

  The three frames: each kernel program's by its generated frame certificate; the reference, which has no kernel, by its
  run with the result dropped. The idealization rewrote no operation, so "preserves" asks nothing. For "algebraic" the
  kernel's run is read at its result buffer (KRun), that buffer's contents are chained through the two regions' closed forms
  and the host stretches to the node form (Regions, KFold, KOut), the reference's composed term is read as the edge form
  (RefValue), and the two forms are joined (Spec, LibCount, Bridge).
-/
import proofs.«121808_j34591666602118_2_alg».proof.Defs
import proofs.«121808_j34591666602118_2_alg».proof.Proof.Gen.Kernel
import proofs.«121808_j34591666602118_2_alg».proof.Proof.Gen.Kernel.Skeleton
import proofs.«121808_j34591666602118_2_alg».proof.Proof.Gen.Kernel.Launch
import proofs.«121808_j34591666602118_2_alg».proof.Proof.Gen.Kernel.Points
import proofs.«121808_j34591666602118_2_alg».proof.Proof.Gen.Kernel.Frame
import proofs.«121808_j34591666602118_2_alg».proof.Proof.Gen.KernelIdeal
import proofs.«121808_j34591666602118_2_alg».proof.Proof.Gen.KernelIdeal.Skeleton
import proofs.«121808_j34591666602118_2_alg».proof.Proof.Gen.KernelIdeal.Launch
import proofs.«121808_j34591666602118_2_alg».proof.Proof.Gen.KernelIdeal.Points
import proofs.«121808_j34591666602118_2_alg».proof.Proof.Gen.KernelIdeal.Frame
import proofs.«121808_j34591666602118_2_alg».proof.Proof.Gen.ReferenceIdeal
import proofs.«121808_j34591666602118_2_alg».proof.Proof.RefRun
import proofs.«121808_j34591666602118_2_alg».proof.Proof.Gen.Pre_finite_inputs
import proofs.«121808_j34591666602118_2_alg».proof.Proof.KRun
import proofs.«121808_j34591666602118_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs run, and the reference's result is the array the kernel's run
    leaves in its result buffer. -/
theorem algebraic : Cert.algebraic_KernelIdeal_ReferenceIdeal := by
  intro m ρ m' ρ' _ hagree
  refine ⟨fun c => Cert.KernelIdeal.Gen.W6 m ρ c (Proc.devRef .tc Cert.KernelIdeal.main_v30),
    Cert.KernelIdeal.KRun.run_out (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.results_eq m ρ m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
